-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S2000x128 : Shape := ⟨2, ![2000, 128]⟩
abbrev S2000x1 : Shape := ⟨2, ![2000, 1]⟩
abbrev S850000x128 : Shape := ⟨2, ![850000, 128]⟩
abbrev S1x128 : Shape := ⟨2, ![1, 128]⟩

abbrev nBuf : Space → Nat
  | .hbm => 61
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .bf16⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x128, .bf16⟩
  | .hbm, ⟨38, _⟩ => ⟨S850000x128, .f32⟩
  | .hbm, ⟨39, _⟩ => ⟨S_, .f32⟩
  | .hbm, ⟨40, _⟩ => ⟨S50000x128, .f32⟩
  | .hbm, ⟨41, _⟩ => ⟨S850000x1, .i32⟩
  | .hbm, ⟨42, _⟩ => ⟨S50000x128, .f32⟩
  | .hbm, ⟨43, _⟩ => ⟨S1x128, .f32⟩
  | .hbm, ⟨44, _⟩ => ⟨S50000x128, .bf16⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .bf16⟩
  | .hbm, ⟨54, _⟩ => ⟨S850000x128, .f32⟩
  | .hbm, ⟨55, _⟩ => ⟨S_, .f32⟩
  | .hbm, ⟨56, _⟩ => ⟨S50000x128, .f32⟩
  | .hbm, ⟨57, _⟩ => ⟨S850000x1, .i32⟩
  | .hbm, ⟨58, _⟩ => ⟨S50000x128, .f32⟩
  | .hbm, ⟨59, _⟩ => ⟨S1x128, .f32⟩
  | .hbm, ⟨60, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x128, .f32⟩
  | .local _ .vmem, ⟨13, _⟩ => ⟨S2000x128, .bf16⟩
  | .local _ .vmem, ⟨14, _⟩ => ⟨S2000x128, .bf16⟩
  | .local _ .vmem, ⟨15, _⟩ => ⟨S2000x128, .f32⟩
  | .local _ .vmem, ⟨16, _⟩ => ⟨S2000x128, .f32⟩
  | .local _ .vmem, ⟨17, _⟩ => ⟨S2000x1, .f32⟩
  | .local _ .vmem, ⟨18, _⟩ => ⟨S2000x1, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S850000x1_S850000_n_0_0_1_wf : ScatterDims.WF S50000 S850000x1 S850000 [] [0] [0] 1
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .bf16 = 32 ∨ (Rect.block (s := S50000x128) S2000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v40) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x128, .f32⟩
  | .hbm, ⟨79, _⟩ => ⟨S850000x1, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KernelRun.lean ====
/-
  The idealized kernel's run with its result named.

  The program is three kernel regions among stretches of host operations. Its buffer contents at each boundary are a
  fold from the launch memory (the generated frame module's W0 … W8): a host stretch applies its operations, a region
  replaces its windows' arrays by what its write-backs leave. Every execution ends with every unscoped buffer at the
  last boundary's contents W8; the frame claim keeps only the argument arrays of that, this statement also keeps the
  result array.
-/
import proofs.«117656_j60876866453592_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_value : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.KernelBody.lean ====
/-
  What each of the three kernel bodies stores, read at an entry (p, q) of its 2000 × 128 block, on the extended reals.

  * The first body: the block of X times the weights, every row p scaled by the entry p of the factor column.
  * The second body: the block A of arrived sums is scaled row by row by the factor column, the bias row is added and
    the result rectified; that times the weights, every row scaled by the factor column again.
  * The third body: the block of arrived sums scaled row by row by the factor column, plus the bias row.
  A change of float format is the identity here, a matrix product into the zero accumulator is the plain sum over the
  contracted axis, a column repeated along the rows reads the column's entry of that row, and a row repeated along the
  rows reads the row's entry of that column.
-/
import proofs.«117656_j60876866453592_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«117656_j60876866453592_2_alg».proof.Proof.LibHostRead
import proofs.«117656_j60876866453592_2_alg».proof.Proof.LibKeepdims

noncomputable section

namespace Cert.KernelIdeal.Body

open Cert.KernelIdeal Cert.KernelIdeal.Gen Idealize.ShloMosaic Idealize.ShloMosaic.ValueIdx

/-- The bodies' matrix product reads its left operand at (row, contracted coordinate) and its right operand at
    (contracted coordinate, column). -/
theorem plain : LibHostRead.PlainDot dot_S2000x128_S128x128_S2000x128_1_0_0_1_n_n where
  hr := rfl
  hs := rfl
  hl0 := fun i q => by
    unfold DotDims.lhsIdx
    rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
    rfl
  hl1 := fun i q => dot_S2000x128_S128x128_S2000x128_1_0_0_1_n_n.lhsIdx_val_of_single rfl i q
  hr0 := fun i q => dot_S2000x128_S128x128_S2000x128_1_0_0_1_n_n.rhsIdx_val_of_single rfl i q
  hr1 := fun i q => by
    unfold DotDims.rhsIdx
    rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
    rfl

/-- The first body's stored value at (p, q): row p of the block times column q of the weights, scaled by the factor
    of row p. -/
theorem pay0_apply (x0 : Vec Ideal S2000x128 .f32) (x1 : Vec Ideal S128x128 .f32) (x2 : Vec Ideal S2000x1 .f32)
    (p : Fin 2000) (q : Fin 128) :
    k0_pay1 x0 x1 x2 (ix2 p q) = (∑ k : Fin 128, x0 (ix2 p k) * x1 (ix2 k q)) * x2 (ix2 p (0 : Fin 1)) := by
  unfold k0_pay1
  show matmul (F := Ideal) dot_S2000x128_S128x128_S2000x128_1_0_0_1_n_n none (truncf (F := Ideal) .bf16 x0 bitsLt_bf16_f32) (truncf (F := Ideal) .bf16 x1 bitsLt_bf16_f32) (constant (F := Ideal) S2000x128 .f32 0x00000000#32) (ix2 p q)
      * broadcastTo S2000x128 (shapeCast S2000x1 x2 shapeCasts_S2000x1_S2000x1) broadcasts_S2000x1_S2000x128 (ix2 p q) = _
  refine congrArg₂ (· * ·) (LibHostRead.matmul_plain_zero_apply dot_S2000x128_S128x128_S2000x128_1_0_0_1_n_n plain _ _ p q) ?_
  rw [LibKeepdims.broadcastTo_a1_ab_apply, shapeCast_self]

/-- The rectified first-layer value the second body feeds its product, at (p, k). -/
theorem hidden_apply (v0 : Vec Ideal S2000x1 .f32) (v2 : Vec Ideal S2000x128 .f32) (v6 : Vec Ideal S1x128 .f32)
    (p : Fin 2000) (k : Fin 128) :
    maximumf (F := Ideal) (addf (F := Ideal) (mulf (F := Ideal) (shapeCast S2000x128 v2 shapeCasts_S2000x128_S2000x128)
        (broadcastTo S2000x128 (shapeCast S2000x1 v0 shapeCasts_S2000x1_S2000x1) broadcasts_S2000x1_S2000x128))
        (broadcastTo S2000x128 (shapeCast S1x128 v6 shapeCasts_S1x128_S1x128) broadcasts_S1x128_S2000x128))
      (broadcast S2000x128 (Scalar.ofBits (F := Ideal) .f32 0x00000000#32)) (ix2 p k)
      = max (v2 (ix2 p k) * v0 (ix2 p (0 : Fin 1)) + v6 (ix2 (0 : Fin 1) k)) 0 := by
  show max (shapeCast S2000x128 v2 shapeCasts_S2000x128_S2000x128 (ix2 p k)
        * broadcastTo S2000x128 (shapeCast S2000x1 v0 shapeCasts_S2000x1_S2000x1) broadcasts_S2000x1_S2000x128 (ix2 p k)
        + broadcastTo S2000x128 (shapeCast S1x128 v6 shapeCasts_S1x128_S1x128) broadcasts_S1x128_S2000x128 (ix2 p k))
      (Ideal.ofBits .f32 0x00000000#32) = _
  rw [shapeCast_self, LibKeepdims.broadcastTo_a1_ab_apply, shapeCast_self, broadcastTo_1b_ab_apply, shapeCast_self,
    Ideal.ofBits_zero_f32]

/-- The second body's stored value at (p, q). -/
theorem pay1_apply (v0 : Vec Ideal S2000x1 .f32) (v2 : Vec Ideal S2000x128 .f32) (v6 : Vec Ideal S1x128 .f32)
    (v13 : Vec Ideal S128x128 .f32) (p : Fin 2000) (q : Fin 128) :
    k1_pay1 v0 v2 v6 v13 (ix2 p q)
      = (∑ k : Fin 128, max (v2 (ix2 p k) * v0 (ix2 p (0 : Fin 1)) + v6 (ix2 (0 : Fin 1) k)) 0 * v13 (ix2 k q))
        * v0 (ix2 p (0 : Fin 1)) := by
  unfold k1_pay1
  show matmul (F := Ideal) dot_S2000x128_S128x128_S2000x128_1_0_0_1_n_n none
        (truncf (F := Ideal) .bf16 (maximumf (F := Ideal) (addf (F := Ideal) (mulf (F := Ideal) (shapeCast S2000x128 v2 shapeCasts_S2000x128_S2000x128)
          (broadcastTo S2000x128 (shapeCast S2000x1 v0 shapeCasts_S2000x1_S2000x1) broadcasts_S2000x1_S2000x128))
          (broadcastTo S2000x128 (shapeCast S1x128 v6 shapeCasts_S1x128_S1x128) broadcasts_S1x128_S2000x128))
          (broadcast S2000x128 (Scalar.ofBits (F := Ideal) .f32 0x00000000#32))) bitsLt_bf16_f32)
        (truncf (F := Ideal) .bf16 v13 bitsLt_bf16_f32) (constant (F := Ideal) S2000x128 .f32 0x00000000#32) (ix2 p q)
      * broadcastTo S2000x128 (shapeCast S2000x1 v0 shapeCasts_S2000x1_S2000x1) broadcasts_S2000x1_S2000x128 (ix2 p q) = _
  refine congrArg₂ (· * ·) ((LibHostRead.matmul_plain_zero_apply dot_S2000x128_S128x128_S2000x128_1_0_0_1_n_n plain _ _ p q).trans
    (Finset.sum_congr rfl fun k _ => congrArg (· * v13 (ix2 k q)) (hidden_apply v0 v2 v6 p k))) ?_
  rw [LibKeepdims.broadcastTo_a1_ab_apply, shapeCast_self]

/-- The third body's stored value at (p, q). -/
theorem pay2_apply (v0 : Vec Ideal S2000x1 .f32) (v2 : Vec Ideal S2000x128 .f32) (v6 : Vec Ideal S1x128 .f32)
    (p : Fin 2000) (q : Fin 128) :
    k2_pay1 v0 v2 v6 (ix2 p q) = v2 (ix2 p q) * v0 (ix2 p (0 : Fin 1)) + v6 (ix2 (0 : Fin 1) q) := by
  unfold k2_pay1
  show shapeCast S2000x128 v2 shapeCasts_S2000x128_S2000x128 (ix2 p q)
        * broadcastTo S2000x128 (shapeCast S2000x1 v0 shapeCasts_S2000x1_S2000x1) broadcasts_S2000x1_S2000x128 (ix2 p q)
        + broadcastTo S2000x128 (shapeCast S1x128 v6 shapeCasts_S1x128_S1x128) broadcasts_S1x128_S2000x128 (ix2 p q) = _
  rw [shapeCast_self, LibKeepdims.broadcastTo_a1_ab_apply, shapeCast_self, broadcastTo_1b_ab_apply, shapeCast_self]

end Cert.KernelIdeal.Body

end
-- ==== Proof.LibFactorSum.lean ====
/-
  The law that joins the two programs: a node's normalisation factor may be applied once, to the sum of the
  messages arriving at the node, instead of to each message.

  On the extended reals a factor distributes over a sum when it is a non-negative number other than +inf (a
  product with an infinity of either sign, or with zero, is then the same on both sides). The factor of node n
  is such a number: it is the reciprocal square root of a positive degree, or zero.
-/
import Idealize.ShloMosaic.PureOps.Ideal

noncomputable section
open scoped BigOperators
namespace Cert.LibFactorSum

/-- A non-negative factor other than +inf distributes over a finite sum of extended reals. -/
theorem mul_sum_of_nonneg {ι : Type} (s : Finset ι) (d : EReal) (hd : 0 ≤ d) (hd' : d ≠ ⊤) (f : ι → EReal) :
    d * ∑ e ∈ s, f e = ∑ e ∈ s, d * f e := by
  classical
  induction s using Finset.induction_on with
  | empty => simp
  | insert a s ha ih =>
    rw [Finset.sum_insert ha, Finset.sum_insert ha, EReal.left_distrib_of_nonneg_of_ne_top hd hd', ih]

/-- The sum of the messages reaching one node, scaled once by the node's factor d, is the sum of the messages
    each scaled by the sender's factor and by the receiver's factor, when the receiver's factor of every
    message that does reach the node is d. -/
theorem factor_out {M : Nat} (d : EReal) (hd : 0 ≤ d) (hd' : d ≠ ⊤) (c : Fin M → Prop) [DecidablePred c]
    (a s t : Fin M → EReal) (ht : ∀ e, c e → t e = d) :
    d * (0 + ∑ e : Fin M, if c e then a e * s e else 0)
      = 0 + ∑ e : Fin M, if c e then a e * (s e * t e) else 0 := by
  rw [zero_add, zero_add, mul_sum_of_nonneg _ d hd hd']
  refine Finset.sum_congr rfl fun e _ => ?_
  by_cases h : c e
  · rw [if_pos h, if_pos h, ht e h, mul_comm (s e) d, ← mul_assoc (a e), mul_comm (a e) d, mul_assoc]
  · rw [if_neg h, if_neg h, mul_zero]

/-- The reciprocal square root of a positive extended real is a non-negative number other than +inf. -/
theorem rsqrt_nonneg_ne_top (x : EReal) (hx : 0 < x) : 0 ≤ Idealize.ShloMosaic.Ideal.rsqrt x ∧ Idealize.ShloMosaic.Ideal.rsqrt x ≠ ⊤ := by
  induction x using EReal.rec with
  | bot => exact absurd hx (by simp)
  | top =>
    have h : Idealize.ShloMosaic.Ideal.rsqrt (⊤ : EReal) = 0 := rfl
    rw [h]; exact ⟨le_refl 0, EReal.zero_ne_top⟩
  | coe r =>
    have hr : 0 < r := by exact_mod_cast hx
    have h : Idealize.ShloMosaic.Ideal.rsqrt (r : EReal)
        = if r < 0 then ⊥ else if r = 0 then ⊤ else (((Real.sqrt r)⁻¹ : ℝ) : EReal) := rfl
    rw [h, if_neg (not_lt.mpr hr.le), if_neg hr.ne']
    exact ⟨by exact_mod_cast (inv_nonneg.mpr (Real.sqrt_nonneg r)), EReal.coe_ne_top _⟩

end Cert.LibFactorSum
end
-- ==== Proof.LibNodeScatter.lean ====
/-
  Rows of a node-by-feature array gathered, and accumulated, along the node axis, read at an index.

  The operand is an array over (node, feature) of extents `N, D`; the indices are a column of `M` words, each
  naming a node; the other array is over (index, feature) of extents `M, D`.
  * An ACCUMULATING SCATTER adds update row `e` to operand row `idx[e]` (the word read signed; a row outside
    `[0, N)` is dropped). On the extended reals entry `(n, d)` of the result is the operand's entry plus the sum,
    over the rows `e` with `idx[e] = n`, of update entry `(e, d)` (`hostScatterAdd_nodes_apply`), because update
    entry `(e, d)` lands exactly at `(idx[e], d)` (`resultIdx?_nodes`).
  * A GATHER reads operand row `idx[e]`, the word read signed and clamped into `[0, N − 1]`, into result row `e`
    (`gather_nodes_apply`).
  Neither statement depends on the feature extent `D`: the same rows are selected whatever the width of a row.
-/
import Idealize.ShloMosaic.PureOps.Ideal
import Idealize.ShloMosaic.Lib.ValueIdx

noncomputable section
open scoped BigOperators
namespace Cert.LibNodes

open Idealize.ShloMosaic Idealize.ShloMosaic.ValueIdx

/-- The dimension numbers of a scatter of whole rows into a node-by-feature array: update axis 1 is the window
    axis, operand axis 0 is the inserted one and the one the index names. -/
abbrev nodeScatterDims (N D M : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

variable {N D M w : Nat} (wf : ScatterDims.WF ⟨2, ![N, D]⟩ ⟨2, ![M, 1]⟩ ⟨2, ![M, D]⟩ [1] [0] [0] 1)

/-- On the node axis an update's start is its row's index word, read signed. -/
theorem start0 (j : (⟨2, ![M, D]⟩ : Shape).Idx) (idx : IVec ⟨2, ![M, 1]⟩ w) :
    (nodeScatterDims N D M wf).start j idx 0 = (idx (ix2 (j 0) (0 : Fin 1))).toInt := by
  unfold ScatterDims.start
  rw [dif_pos (show (0 : Fin 2) ∈ (nodeScatterDims N D M wf).scatterDimsToOperandDims from List.mem_singleton.mpr rfl)]
  congr 2
  funext b; refine Fin.ext ?_
  match b with
  | ⟨0, _⟩ => rfl
  | ⟨1, _⟩ => rfl

/-- Update entry `(e, d)` lands at `(n, d')` exactly when the feature agrees and row `e`'s index word, read
    signed, is `n`. -/
theorem resultIdx?_nodes (e : Fin M) (d : Fin D) (idx : IVec ⟨2, ![M, 1]⟩ w) (n : Fin N) (d' : Fin D) :
    (nodeScatterDims N D M wf).resultIdx? (ix2 e d) idx = some (ix2 n d') ↔
      d' = d ∧ (idx (ix2 e (0 : Fin 1))).toInt = (n.val : ℤ) := by
  have hs : (nodeScatterDims N D M wf).start (ix2 e d) idx 0 = (idx (ix2 e (0 : Fin 1))).toInt := start0 wf _ idx
  unfold ScatterDims.resultIdx?
  split
  · next h =>
    rw [Option.some.injEq]
    constructor
    · intro hf
      have h0 := congrArg (fun f => (f 0).val) hf
      have h1 := congrArg (fun f => (f 1).val) hf
      have g0 := (h 0).1
      simp only at h0 h1
      refine ⟨Fin.ext ?_, ?_⟩
      · have : ((0 : ℤ) + ((d.val : ℕ) : ℤ)).toNat = d'.val := h1
        omega
      · have e1 : ((nodeScatterDims N D M wf).start (ix2 e d) idx 0 + ((0 : ℕ) : ℤ)).toNat = n.val := h0
        have e2 : 0 ≤ (nodeScatterDims N D M wf).start (ix2 e d) idx 0 + ((0 : ℕ) : ℤ) := g0
        rw [hs] at e1 e2
        omega
    · rintro ⟨rfl, hx⟩
      funext a
      refine Fin.ext ?_
      match a with
      | ⟨0, _⟩ =>
        show ((nodeScatterDims N D M wf).start (ix2 e d') idx 0 + ((0 : ℕ) : ℤ)).toNat = n.val
        rw [hs, hx]; omega
      | ⟨1, _⟩ => show ((0 : ℤ) + ((d'.val : ℕ) : ℤ)).toNat = d'.val; omega
  · next h =>
    constructor
    · intro hf; exact absurd hf (by simp)
    · rintro ⟨rfl, hx⟩
      exfalso; apply h
      intro a
      match a with
      | ⟨0, _⟩ =>
        show 0 ≤ (nodeScatterDims N D M wf).start (ix2 e d') idx 0 + ((0 : ℕ) : ℤ)
          ∧ (nodeScatterDims N D M wf).start (ix2 e d') idx 0 + ((0 : ℕ) : ℤ) < ((N : ℕ) : ℤ)
        rw [hs, hx]; have := n.isLt; omega
      | ⟨1, _⟩ =>
        show 0 ≤ (0 : ℤ) + ((d'.val : ℕ) : ℤ) ∧ (0 : ℤ) + ((d'.val : ℕ) : ℤ) < ((D : ℕ) : ℤ)
        have := d'.isLt; omega

/-- The accumulating row scatter read at `(n, d)`: the operand's entry plus the update entries `(e, d)` of the
    rows `e` whose index word names node `n`. -/
theorem hostScatterAdd_nodes_apply (x : (⟨2, ![N, D]⟩ : Shape).Idx → EReal) (idx : IVec ⟨2, ![M, 1]⟩ w)
    (upd : (⟨2, ![M, D]⟩ : Shape).Idx → EReal) (n : Fin N) (d : Fin D) :
    Ideal.hostScatterAdd (nodeScatterDims N D M wf) x idx upd (ix2 n d)
      = x (ix2 n d) + ∑ e : Fin M, if (idx (ix2 e (0 : Fin 1))).toInt = (n.val : ℤ) then upd (ix2 e d) else 0 := by
  unfold Ideal.hostScatterAdd
  refine congrArg (x (ix2 n d) + ·) ?_
  rw [← Finset.sum_filter]
  refine Finset.sum_nbij' (fun j => (j 0 : Fin M)) (fun e => ix2 e d) ?_ ?_ ?_ ?_ ?_
  · intro j hj
    have hj' := (Finset.mem_filter.mp hj).2
    rw [eq_ix2 j] at hj'
    exact Finset.mem_filter.mpr ⟨Finset.mem_univ _, ((resultIdx?_nodes wf _ _ idx n d).mp hj').2⟩
  · intro e he
    have he' := (Finset.mem_filter.mp he).2
    exact Finset.mem_filter.mpr ⟨Finset.mem_univ _, (resultIdx?_nodes wf e d idx n d).mpr ⟨rfl, he'⟩⟩
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact hjj.symm
  · intro e _; rfl
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact congrArg upd hjj

/-- The dimension numbers of a gather of whole rows of a node-by-feature array: a column of `M` start indices
    naming nodes, the result over (index, feature). -/
abbrev nodeGatherDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- The node a start-index word names: read signed and clamped into `[0, N − 1]`. -/
def nodeOf (N : Nat) (hN : 0 < N) {w : Nat} (x : BitVec w) : Fin N := ⟨min x.toInt.toNat (N - 1), by omega⟩

/-- The row gather read at `(e, d)`: the operand at the row `idx[e]` names. -/
theorem gather_nodes_apply {α : Type} (hN : 0 < N)
    (wfg : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (d : Fin D) :
    Host.gather (nodeGatherDims N D M wfg) x idx (ix2 e d)
      = x (ix2 (nodeOf N hN (idx (ix2 e (0 : Fin 1)))) d) := by
  unfold Host.gather
  refine congrArg x (funext fun a => Fin.ext ?_)
  have hst : (nodeGatherDims N D M wfg).start (ix2 e d) idx 0 = min (idx (ix2 e (0 : Fin 1))).toInt.toNat (N - 1) := by
    unfold GatherDims.start
    rw [dif_pos (show (0 : Fin 2) ∈ (nodeGatherDims N D M wfg).startIndexMap from List.mem_singleton.mpr rfl)]
    have hsi : (nodeGatherDims N D M wfg).siIdx (ix2 e d) ⟨List.idxOf (0 : Fin 2) (nodeGatherDims N D M wfg).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  match a with
  | ⟨0, _⟩ =>
    show (nodeGatherDims N D M wfg).start (ix2 e d) idx 0 + (nodeGatherDims N D M wfg).batchCoord (ix2 e d) 0
      + (nodeGatherDims N D M wfg).offCoord (ix2 e d) 0 = min (idx (ix2 e (0 : Fin 1))).toInt.toNat (N - 1)
    have h2 : (nodeGatherDims N D M wfg).batchCoord (ix2 e d) 0 = 0 := rfl
    have h3 : (nodeGatherDims N D M wfg).offCoord (ix2 e d) 0 = 0 := rfl
    rw [hst, h2, h3]; rfl
  | ⟨1, _⟩ =>
    show (nodeGatherDims N D M wfg).start (ix2 e d) idx 1 + (nodeGatherDims N D M wfg).batchCoord (ix2 e d) 1
      + (nodeGatherDims N D M wfg).offCoord (ix2 e d) 1 = d.val
    have h1 : (nodeGatherDims N D M wfg).start (ix2 e d) idx 1 = 0 := rfl
    have h2 : (nodeGatherDims N D M wfg).batchCoord (ix2 e d) 1 = 0 := rfl
    have h3 : (nodeGatherDims N D M wfg).offCoord (ix2 e d) 1 = d.val := rfl
    rw [h1, h2, h3]; omega

end Cert.LibNodes
end
-- ==== Proof.GcnSpec.lean ====
/-
  A two-layer graph convolution with symmetric degree normalisation, written two ways, and the law that joins them.

  Nodes n carry feature rows; an edge e sends the row of its source node s(e) to its target. With d(n) the
  normalisation factor of node n (the reciprocal square root of its degree, or zero), a layer maps node features X to
      out(n, j) = Σ_{e lands at n} (X·W)(s(e), j) · d(s(e)) · d(n)  +  b(j).
  * The REFERENCE multiplies every message by the edge weight d(s(e)) · d(t(e)), where t(e) is the node the
    edge's target word names when it is read back as an index, and sums afterwards (`convR`).
  * The KERNEL scales the rows of X·W by d before they are sent (`scaleMatmul`, `fusedLayer`) and scales the sum
    once by d(n) after it has arrived (`relu1K`, `finalLayer`).
  An edge lands at n exactly when its target word, read signed, is n; for such an edge t(e) = n. So the two agree
  as soon as d(n) may be taken out of the sum over the edges landing at n: on the extended reals that is true of a
  non-negative factor other than +inf (`agg_scale`), whatever the messages are.
-/
import Idealize.ShloMosaic.PureOps.Ideal
import Idealize.ShloMosaic.Lib.ValueIdx
import proofs.«117656_j60876866453592_2_alg».proof.Proof.LibFactorSum
import proofs.«117656_j60876866453592_2_alg».proof.Proof.LibNodeScatter

noncomputable section
open scoped BigOperators
namespace Cert.Gcn

open Idealize.ShloMosaic Idealize.ShloMosaic.ValueIdx

/-- node-by-feature arrays, weight matrices, edge-by-feature arrays, columns over the nodes, rows over the
    features, and index columns over the edges -/
abbrev SN : Shape := ⟨2, ![50000, 128]⟩
abbrev SW : Shape := ⟨2, ![128, 128]⟩
abbrev SE : Shape := ⟨2, ![850000, 128]⟩
abbrev SC : Shape := ⟨2, ![50000, 1]⟩
abbrev SR : Shape := ⟨2, ![1, 128]⟩
abbrev SI : Shape := ⟨2, ![850000, 1]⟩

/-- The node an index word names when a row is read through it: the word read signed, clamped into the node range. -/
abbrev nd (x : BitVec 32) : Fin 50000 := LibNodes.nodeOf 50000 (by decide) x

/-- Row e of the result is row nd(ic e) of X. -/
def gatherRows (X : SN.Idx → EReal) (ic : IVec SI 32) : SE.Idx → EReal :=
  fun j => X (ix2 (nd (ic (ix2 (j 0) (0 : Fin 1)))) (j 1))

/-- Entry (n, d) of the result is z plus the entries (e, d) of U over the edges e whose word, read signed, is n. -/
def scatterRows (z : EReal) (ic : IVec SI 32) (U : SE.Idx → EReal) : SN.Idx → EReal :=
  fun i => z + ∑ e : Fin 850000, if (ic (ix2 e (0 : Fin 1))).toInt = ((i 0).val : ℤ) then U (ix2 e (i 1)) else 0

/-- The plain product X·W. -/
def mm (X : SN.Idx → EReal) (W : SW.Idx → EReal) : SN.Idx → EReal :=
  fun i => ∑ k : Fin 128, X (ix2 (i 0) k) * W (ix2 k (i 1))

/-! ## The kernel's three stages -/

/-- Rows of X·W scaled by the node's factor. -/
def scaleMatmul (x : SN.Idx → EReal) (w : SW.Idx → EReal) (d : SC.Idx → EReal) : SN.Idx → EReal :=
  fun i => mm x w i * d (ix2 (i 0) (0 : Fin 1))

/-- The first layer's output from the arrived sums: scaled by the node's factor, the bias added, rectified. -/
def relu1K (z : EReal) (a : SN.Idx → EReal) (d : SC.Idx → EReal) (b : SR.Idx → EReal) : SN.Idx → EReal :=
  fun i => max (a i * d (ix2 (i 0) (0 : Fin 1)) + b (ix2 (0 : Fin 1) (i 1))) z

/-- That output times the second weights, its rows scaled by the node's factor. -/
def fusedLayer (z : EReal) (a : SN.Idx → EReal) (d : SC.Idx → EReal) (b : SR.Idx → EReal) (w : SW.Idx → EReal) :
    SN.Idx → EReal :=
  fun i => mm (relu1K z a d b) w i * d (ix2 (i 0) (0 : Fin 1))

/-- The second layer's output from the arrived sums: scaled by the node's factor, the bias added. -/
def finalLayer (a : SN.Idx → EReal) (d : SC.Idx → EReal) (b : SR.Idx → EReal) : SN.Idx → EReal :=
  fun i => a i * d (ix2 (i 0) (0 : Fin 1)) + b (ix2 (0 : Fin 1) (i 1))

/-- The kernel's result: sI names each edge's source row, tI its target. -/
def kernelOut (z : EReal) (x : SN.Idx → EReal) (w1 : SW.Idx → EReal) (b1 : SR.Idx → EReal) (w2 : SW.Idx → EReal)
    (b2 : SR.Idx → EReal) (d : SC.Idx → EReal) (sI tI : IVec SI 32) : SN.Idx → EReal :=
  finalLayer (scatterRows z tI (gatherRows
    (fusedLayer z (scatterRows z tI (gatherRows (scaleMatmul x w1 d) sI)) d b1 w2) sI)) d b2

/-! ## The reference's layer -/

/-- One layer of the reference: every message scaled by its edge weight, summed at the target, the bias added. -/
def convR (z : EReal) (X : SN.Idx → EReal) (w : SW.Idx → EReal) (nrm : Fin 850000 → EReal) (sI tI : IVec SI 32)
    (b : Fin 128 → EReal) : SN.Idx → EReal :=
  fun i => scatterRows z tI (fun j => gatherRows (mm X w) sI j * nrm (j 0)) i + b (i 1)

/-- The reference's result: two layers, rectified in between. -/
def refOut (z : EReal) (x : SN.Idx → EReal) (w1 : SW.Idx → EReal) (b1 : Fin 128 → EReal) (w2 : SW.Idx → EReal)
    (b2 : Fin 128 → EReal) (nrm : Fin 850000 → EReal) (sI tI : IVec SI 32) : SN.Idx → EReal :=
  convR z (fun i => max (convR z x w1 nrm sI tI b1 i) z) w2 nrm sI tI b2

/-! ## The law -/

section Law

variable (dv : Fin 50000 → EReal) (hd : ∀ n, 0 ≤ dv n ∧ dv n ≠ ⊤)
variable (d : SC.Idx → EReal) (hC : ∀ n : Fin 50000, d (ix2 n (0 : Fin 1)) = dv n)
variable (sI tI : IVec SI 32) (tn : Fin 850000 → Fin 50000)
variable (ht : ∀ (e : Fin 850000) (n : Fin 50000), (tI (ix2 e (0 : Fin 1))).toInt = (n.val : ℤ) → tn e = n)
variable (nrm : Fin 850000 → EReal) (hn : ∀ e, nrm e = dv (nd (sI (ix2 e (0 : Fin 1)))) * dv (tn e))

include hd hC ht hn in
/-- The sum of the sender-scaled rows arriving at node p, scaled once by p's factor, is the sum of the rows each
    scaled by its edge weight. -/
theorem agg_scale (H : SN.Idx → EReal) (p : Fin 50000) (q : Fin 128) :
    scatterRows 0 tI (gatherRows (fun i => H i * d (ix2 (i 0) (0 : Fin 1))) sI) (ix2 p q) * d (ix2 p (0 : Fin 1))
      = scatterRows 0 tI (fun j => gatherRows H sI j * nrm (j 0)) (ix2 p q) := by
  rw [mul_comm, hC p]
  show dv p * (0 + ∑ e : Fin 850000, if (tI (ix2 e (0 : Fin 1))).toInt = (p.val : ℤ)
        then H (ix2 (nd (sI (ix2 e (0 : Fin 1)))) q) * d (ix2 (nd (sI (ix2 e (0 : Fin 1)))) (0 : Fin 1)) else 0)
      = 0 + ∑ e : Fin 850000, if (tI (ix2 e (0 : Fin 1))).toInt = (p.val : ℤ)
        then H (ix2 (nd (sI (ix2 e (0 : Fin 1)))) q) * nrm e else 0
  simp only [hC, hn]
  exact LibFactorSum.factor_out (dv p) (hd p).1 (hd p).2 (fun e => (tI (ix2 e (0 : Fin 1))).toInt = (p.val : ℤ))
    (fun e => H (ix2 (nd (sI (ix2 e (0 : Fin 1)))) q)) (fun e => dv (nd (sI (ix2 e (0 : Fin 1))))) (fun e => dv (tn e))
    (fun e he => by rw [ht e p he])

include hd hC ht hn in
/-- The kernel's result is the reference's, when the bias rows hold the bias vectors. -/
theorem kernelOut_eq_refOut (x : SN.Idx → EReal) (w1 w2 : SW.Idx → EReal) (b1r b2r : SR.Idx → EReal)
    (b1 b2 : Fin 128 → EReal) (hb1 : ∀ q, b1r (ix2 (0 : Fin 1) q) = b1 q) (hb2 : ∀ q, b2r (ix2 (0 : Fin 1) q) = b2 q) :
    kernelOut 0 x w1 b1r w2 b2r d sI tI = refOut 0 x w1 b1 w2 b2 nrm sI tI := by
  have h1 : relu1K 0 (scatterRows 0 tI (gatherRows (scaleMatmul x w1 d) sI)) d b1r
      = fun i => max (convR 0 x w1 nrm sI tI b1 i) 0 := by
    funext i
    obtain ⟨p, q, rfl⟩ : ∃ (p : Fin 50000) (q : Fin 128), i = ix2 p q := ⟨i 0, i 1, eq_ix2 i⟩
    show max (scatterRows 0 tI (gatherRows (fun i => mm x w1 i * d (ix2 (i 0) (0 : Fin 1))) sI) (ix2 p q) * d (ix2 p (0 : Fin 1))
        + b1r (ix2 (0 : Fin 1) q)) 0 = max (scatterRows 0 tI (fun j => gatherRows (mm x w1) sI j * nrm (j 0)) (ix2 p q) + b1 q) 0
    rw [agg_scale dv hd d hC sI tI tn ht nrm hn (mm x w1) p q, hb1]
  funext i
  obtain ⟨p, q, rfl⟩ : ∃ (p : Fin 50000) (q : Fin 128), i = ix2 p q := ⟨i 0, i 1, eq_ix2 i⟩
  show scatterRows 0 tI (gatherRows (fun i => mm (relu1K 0 (scatterRows 0 tI (gatherRows (scaleMatmul x w1 d) sI)) d b1r) w2 i
        * d (ix2 (i 0) (0 : Fin 1))) sI) (ix2 p q) * d (ix2 p (0 : Fin 1)) + b2r (ix2 (0 : Fin 1) q)
      = scatterRows 0 tI (fun j => gatherRows (mm (fun i => max (convR 0 x w1 nrm sI tI b1 i) 0) w2) sI j * nrm (j 0)) (ix2 p q) + b2 q
  rw [agg_scale dv hd d hC sI tI tn ht nrm hn _ p q, hb2, h1]

end Law

end Cert.Gcn
end
-- ==== Proof.Region0.lean ====
/-
  The first region's result array as one function of its three input arrays.

  The grid has 25 points. At point t the first window holds rows 2000·t … 2000·t + 1999 of the node features, the
  second the whole weight matrix, the third the same rows of the factor column, and the body writes the same rows of
  the result. Row r of the result is therefore row r of the features times the weights, scaled by the factor of node
  r; the 25 blocks of rows tile the 50000 rows, so this holds of the whole array.
-/
import proofs.«117656_j60876866453592_2_alg».proof.Proof.Gen.KernelIdeal.Frame
import Idealize.ShloMosaic.Lib.Pipeline.Value
import Idealize.ShloMosaic.Lib.ValueIdx
import proofs.«117656_j60876866453592_2_alg».proof.Proof.KernelBody
import proofs.«117656_j60876866453592_2_alg».proof.Proof.GcnSpec

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The arrays the region finds, as functions on the extended reals. -/
abbrev aX (c : Dev nD) : S50000x128.Idx → EReal := V c main_arg0
abbrev aW (c : Dev nD) : S128x128.Idx → EReal := V c main_arg2
abbrev aD (c : Dev nD) : S50000x1.Idx → EReal := V c main_v15

theorem offset_zero : (![0, 0] : Fin 2 → Nat) = fun _ => 0 := funext fun a => by fin_cases a <;> rfl

/-- The windows' block indices at point t: the row windows are at block row t, the weights at the one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every block row is some point's. -/
theorem block_onto : ∀ q0 : Fin 25, ∃ t : Fin cfg0.N, win0_3.index t = ![q0.val, 0] :=
  (by decide +kernel : ∀ q0 : Fin 25, ∃ t : Fin grid0.N, win0_3.index t = ![q0.val, 0])

/-- The node whose row is row p of point t's blocks. -/
def rowAt (t : Fin cfg0.N) (p : Fin 2000) : Fin 50000 :=
  ⟨t.val * 2000 + p.val, by have h : cfg0.N = 25 := N_0; have := t.isLt; have := p.isLt; omega⟩

theorem emb_x (t : Fin cfg0.N) (p : Fin 2000) (k : Fin 128) :
    ((cfg0.win 0).blk t).view.emb (ix2 p k) = ix2 (rowAt t p) k := by
  obtain ⟨e0, e1, -⟩ := block_index t
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

theorem emb_w (t : Fin cfg0.N) (k : Fin 128) (q : Fin 128) :
    ((cfg0.win 1).blk t).view.emb (ix2 k q) = ix2 k q := by
  obtain ⟨-, -, e2, e3, -⟩ := block_index t
  funext a; apply Fin.ext
  match a with
  | ⟨0, _⟩ => show win0_1.index t (0 : Fin 2) * 128 + 1 * k.val = k.val; omega
  | ⟨1, _⟩ => show win0_1.index t (1 : Fin 2) * 128 + 1 * q.val = q.val; omega

theorem emb_d (t : Fin cfg0.N) (p : Fin 2000) (u : Fin 1) :
    ((cfg0.win 2).blk t).view.emb (ix2 p u) = ix2 (rowAt t p) (0 : Fin 1) := by
  obtain ⟨-, -, -, -, e4, e5, -⟩ := block_index t
  funext a; apply Fin.ext
  match a with
  | ⟨0, _⟩ => show win0_2.index t (0 : Fin 2) * 2000 + 1 * p.val = t.val * 2000 + p.val; omega
  | ⟨1, _⟩ => show win0_2.index t (1 : Fin 2) * 1 + 1 * u.val = 0; have := u.isLt; omega

theorem emb_out (t : Fin cfg0.N) (p : Fin 2000) (q : Fin 128) :
    ((cfg0.win 3).blk t).view.emb (ix2 p q) = ix2 (rowAt t p) q := by
  obtain ⟨-, -, -, -, -, -, e6, e7⟩ := block_index t
  funext a; apply Fin.ext
  match a with
  | ⟨0, _⟩ => show win0_3.index t (0 : Fin 2) * 2000 + 1 * p.val = t.val * 2000 + p.val; omega
  | ⟨1, _⟩ => show win0_3.index t (1 : Fin 2) * 128 + 1 * q.val = q.val; omega

/-- What point t writes back is block t of the scaled product of the arrays the region finds. -/
theorem point_writes (c : Dev nD) (t : Fin cfg0.N) :
    (dat0 V c).flushed 3 t = ((cfg0.win 3).blk t).view.read (Elt Ideal)
      (Gcn.scaleMatmul (V c main_arg0) (V c main_arg2) (V c main_v15)) := by
  show (cfg0.win 3).cut (grid0.coords t) ((dat0 V c).after 3 t) = _
  rw [after0_3]
  unfold out0_3
  rw [View.canon_unit_zero offset_zero]
  simp only [View.ld_unit_zero (S := S2000x128) offset_zero, View.ld_unit_zero (S := S128x128) offset_zero,
    View.ld_unit_zero (S := S2000x1) offset_zero]
  funext j
  obtain ⟨p, q, rfl⟩ : ∃ (p : Fin 2000) (q : Fin 128), j = ix2 p q := ⟨j 0, j 1, eq_ix2 j⟩
  refine (Body.pay0_apply _ _ _ p q).trans ?_
  show (∑ k : Fin 128, aX V c (((cfg0.win 0).blk t).view.emb (ix2 p k))
        * aW V c (((cfg0.win 1).blk t).view.emb (ix2 k q)))
      * aD V c (((cfg0.win 2).blk t).view.emb (ix2 p (0 : Fin 1)))
      = Gcn.scaleMatmul (V c main_arg0) (V c main_arg2) (V c main_v15) (((cfg0.win 3).blk t).view.emb (ix2 p q))
  rw [emb_out, emb_d]
  show (∑ k : Fin 128, aX V c (((cfg0.win 0).blk t).view.emb (ix2 p k)) * aW V c (((cfg0.win 1).blk t).view.emb (ix2 k q)))
        * aD V c (ix2 (rowAt t p) (0 : Fin 1))
      = (∑ k : Fin 128, aX V c (ix2 (rowAt t p) k) * aW V c (ix2 k q)) * aD V c (ix2 (rowAt t p) (0 : Fin 1))
  refine congrArg (· * aD V c (ix2 (rowAt t p) (0 : Fin 1))) (Finset.sum_congr rfl fun k _ => ?_)
  rw [emb_x, emb_w]

/-- An index of the result array is in point t's block iff each coordinate is in the block's range on its axis. -/
theorem mem_block (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v16).slice (win0_3.rect t)).set ↔ _
  rw [View.set_slice_whole, Rect.mem_set_unit]
  exact Iff.rfl

/-- Every index of the result array is in some point's block. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := block_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_block]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The result array after the region: the scaled product of the arrays the region finds. -/
theorem value (c : Dev nD) :
    (dat0 V c).arrAt 3 cfg0.N = Gcn.scaleMatmul (V c main_arg0) (V c main_arg2) (V c main_v15) :=
  (dat0 V c).arrAt_eq_of_cover 3 _ (fun t _ => point_writes V c t) covered

end Cert.KernelIdeal.Region0

end
-- ==== Proof.Region1.lean ====
/-
  The second region's result array as one function of its four input arrays.

  At grid point t (of 25) the first window holds rows 2000·t … 2000·t + 1999 of the arrived sums, the second the same
  rows of the factor column, the third the one bias row, the fourth the whole weight matrix, and the body writes the
  same rows of the result. Row r of the result is the rectified, scaled and biased row r of the sums times the
  weights, scaled by the factor of node r; the 25 blocks of rows tile the 50000 rows.
-/
import proofs.«117656_j60876866453592_2_alg».proof.Proof.Gen.KernelIdeal.Frame
import Idealize.ShloMosaic.Lib.Pipeline.Value
import Idealize.ShloMosaic.Lib.ValueIdx
import proofs.«117656_j60876866453592_2_alg».proof.Proof.KernelBody
import proofs.«117656_j60876866453592_2_alg».proof.Proof.GcnSpec

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The arrays the region finds, as functions on the extended reals. -/
abbrev aA (c : Dev nD) : S50000x128.Idx → EReal := V c main_v27
abbrev aD (c : Dev nD) : S50000x1.Idx → EReal := V c main_v15
abbrev aB (c : Dev nD) : S1x128.Idx → EReal := V c main_v28
abbrev aW (c : Dev nD) : S128x128.Idx → EReal := V c main_arg4

theorem offset_zero : (![0, 0] : Fin 2 → Nat) = fun _ => 0 := funext fun a => by fin_cases a <;> rfl

/-- The windows' block indices at point t: the row windows are at block row t, the bias row and the weights at the
    one block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every block row is some point's. -/
theorem block_onto : ∀ q0 : Fin 25, ∃ t : Fin cfg1.N, win1_4.index t = ![q0.val, 0] :=
  (by decide +kernel : ∀ q0 : Fin 25, ∃ t : Fin grid1.N, win1_4.index t = ![q0.val, 0])

/-- The node whose row is row p of point t's blocks. -/
def rowAt (t : Fin cfg1.N) (p : Fin 2000) : Fin 50000 :=
  ⟨t.val * 2000 + p.val, by have h : cfg1.N = 25 := N_1; have := t.isLt; have := p.isLt; omega⟩

theorem emb_a (t : Fin cfg1.N) (p : Fin 2000) (k : Fin 128) :
    ((cfg1.win 0).blk t).view.emb (ix2 p k) = ix2 (rowAt t p) k := by
  obtain ⟨e0, e1, -⟩ := block_index t
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

theorem emb_d (t : Fin cfg1.N) (p : Fin 2000) (u : Fin 1) :
    ((cfg1.win 1).blk t).view.emb (ix2 p u) = ix2 (rowAt t p) (0 : Fin 1) := by
  obtain ⟨-, -, e0, e1, -⟩ := block_index t
  funext a; apply Fin.ext
  match a with
  | ⟨0, _⟩ => show win1_1.index t (0 : Fin 2) * 2000 + 1 * p.val = t.val * 2000 + p.val; omega
  | ⟨1, _⟩ => show win1_1.index t (1 : Fin 2) * 1 + 1 * u.val = 0; have := u.isLt; omega

theorem emb_b (t : Fin cfg1.N) (u : Fin 1) (k : Fin 128) :
    ((cfg1.win 2).blk t).view.emb (ix2 u k) = ix2 (0 : Fin 1) k := by
  obtain ⟨-, -, -, -, e0, e1, -⟩ := block_index t
  funext a; apply Fin.ext
  match a with
  | ⟨0, _⟩ => show win1_2.index t (0 : Fin 2) * 1 + 1 * u.val = 0; have := u.isLt; omega
  | ⟨1, _⟩ => show win1_2.index t (1 : Fin 2) * 128 + 1 * k.val = k.val; omega

theorem emb_w (t : Fin cfg1.N) (k : Fin 128) (q : Fin 128) :
    ((cfg1.win 3).blk t).view.emb (ix2 k q) = ix2 k q := by
  obtain ⟨-, -, -, -, -, -, e0, e1, -⟩ := block_index t
  funext a; apply Fin.ext
  match a with
  | ⟨0, _⟩ => show win1_3.index t (0 : Fin 2) * 128 + 1 * k.val = k.val; omega
  | ⟨1, _⟩ => show win1_3.index t (1 : Fin 2) * 128 + 1 * q.val = q.val; omega

theorem emb_out (t : Fin cfg1.N) (p : Fin 2000) (q : Fin 128) :
    ((cfg1.win 4).blk t).view.emb (ix2 p q) = ix2 (rowAt t p) q := by
  obtain ⟨-, -, -, -, -, -, -, -, e0, e1⟩ := block_index t
  funext a; apply Fin.ext
  match a with
  | ⟨0, _⟩ => show win1_4.index t (0 : Fin 2) * 2000 + 1 * p.val = t.val * 2000 + p.val; omega
  | ⟨1, _⟩ => show win1_4.index t (1 : Fin 2) * 128 + 1 * q.val = q.val; omega

/-- What point t writes back is block t of the fused layer of the arrays the region finds. -/
theorem point_writes (c : Dev nD) (t : Fin cfg1.N) :
    (dat1 V c).flushed 4 t = ((cfg1.win 4).blk t).view.read (Elt Ideal)
      (Gcn.fusedLayer 0 (V c main_v27) (V c main_v15) (V c main_v28) (V c main_arg4)) := by
  show (cfg1.win 4).cut (grid1.coords t) ((dat1 V c).after 4 t) = _
  rw [after1_4]
  unfold out1_4
  rw [View.canon_unit_zero offset_zero]
  simp only [View.ld_unit_zero (S := S2000x128) offset_zero, View.ld_unit_zero (S := S128x128) offset_zero,
    View.ld_unit_zero (S := S2000x1) offset_zero, View.ld_unit_zero (S := S1x128) offset_zero]
  funext j
  obtain ⟨p, q, rfl⟩ : ∃ (p : Fin 2000) (q : Fin 128), j = ix2 p q := ⟨j 0, j 1, eq_ix2 j⟩
  refine (Body.pay1_apply _ _ _ _ p q).trans ?_
  show (∑ k : Fin 128, max (aA V c (((cfg1.win 0).blk t).view.emb (ix2 p k))
          * aD V c (((cfg1.win 1).blk t).view.emb (ix2 p (0 : Fin 1)))
          + aB V c (((cfg1.win 2).blk t).view.emb (ix2 (0 : Fin 1) k))) 0
        * aW V c (((cfg1.win 3).blk t).view.emb (ix2 k q)))
      * aD V c (((cfg1.win 1).blk t).view.emb (ix2 p (0 : Fin 1)))
      = Gcn.fusedLayer 0 (V c main_v27) (V c main_v15) (V c main_v28) (V c main_arg4) (((cfg1.win 4).blk t).view.emb (ix2 p q))
  rw [emb_out, emb_d]
  show (∑ k : Fin 128, max (aA V c (((cfg1.win 0).blk t).view.emb (ix2 p k)) * aD V c (ix2 (rowAt t p) (0 : Fin 1))
          + aB V c (((cfg1.win 2).blk t).view.emb (ix2 (0 : Fin 1) k))) 0
        * aW V c (((cfg1.win 3).blk t).view.emb (ix2 k q))) * aD V c (ix2 (rowAt t p) (0 : Fin 1))
      = (∑ k : Fin 128, max (aA V c (ix2 (rowAt t p) k) * aD V c (ix2 (rowAt t p) (0 : Fin 1)) + aB V c (ix2 (0 : Fin 1) k)) 0
        * aW V c (ix2 k q)) * aD V c (ix2 (rowAt t p) (0 : Fin 1))
  refine congrArg (· * aD V c (ix2 (rowAt t p) (0 : Fin 1))) (Finset.sum_congr rfl fun k _ => ?_)
  rw [emb_a, emb_b, emb_w]

/-- An index of the result array is in point t's block iff each coordinate is in the block's range on its axis. -/
theorem mem_block (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v29).slice (win1_4.rect t)).set ↔ _
  rw [View.set_slice_whole, Rect.mem_set_unit]
  exact Iff.rfl

/-- Every index of the result array is in some point's block. -/
theorem covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := block_onto ⟨(i 0).val / 2000, by omega⟩
  have q0 : win1_4.index t (0 : Fin 2) = (i 0).val / 2000 := congrFun ht 0
  have q1 : win1_4.index t (1 : Fin 2) = 0 := congrFun ht 1
  refine ⟨t, flush1_4 t, ?_⟩
  rw [mem_block]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- The result array after the region: the fused layer of the arrays the region finds. -/
theorem value (c : Dev nD) :
    (dat1 V c).arrAt 4 cfg1.N = Gcn.fusedLayer 0 (V c main_v27) (V c main_v15) (V c main_v28) (V c main_arg4) :=
  (dat1 V c).arrAt_eq_of_cover 4 _ (fun t _ => point_writes V c t) covered

end Cert.KernelIdeal.Region1

end
-- ==== Proof.Region2.lean ====
/-
  The third region's result array as one function of its three input arrays.

  At grid point t (of 25) the first window holds rows 2000·t … 2000·t + 1999 of the arrived sums, the second the same
  rows of the factor column, the third the one bias row, and the body writes the same rows of the result: row r of
  the sums scaled by the factor of node r, plus the bias. The 25 blocks of rows tile the 50000 rows.
-/
import proofs.«117656_j60876866453592_2_alg».proof.Proof.Gen.KernelIdeal.Frame
import Idealize.ShloMosaic.Lib.Pipeline.Value
import Idealize.ShloMosaic.Lib.ValueIdx
import proofs.«117656_j60876866453592_2_alg».proof.Proof.KernelBody
import proofs.«117656_j60876866453592_2_alg».proof.Proof.GcnSpec

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The arrays the region finds, as functions on the extended reals. -/
abbrev aA (c : Dev nD) : S50000x128.Idx → EReal := V c main_v40
abbrev aD (c : Dev nD) : S50000x1.Idx → EReal := V c main_v15
abbrev aB (c : Dev nD) : S1x128.Idx → EReal := V c main_v41

theorem offset_zero : (![0, 0] : Fin 2 → Nat) = fun _ => 0 := funext fun a => by fin_cases a <;> rfl

/-- The windows' block indices at point t: the row windows are at block row t, the bias row at the one block. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every block row is some point's. -/
theorem block_onto : ∀ q0 : Fin 25, ∃ t : Fin cfg2.N, win2_3.index t = ![q0.val, 0] :=
  (by decide +kernel : ∀ q0 : Fin 25, ∃ t : Fin grid2.N, win2_3.index t = ![q0.val, 0])

/-- The node whose row is row p of point t's blocks. -/
def rowAt (t : Fin cfg2.N) (p : Fin 2000) : Fin 50000 :=
  ⟨t.val * 2000 + p.val, by have h : cfg2.N = 25 := N_2; have := t.isLt; have := p.isLt; omega⟩

theorem emb_a (t : Fin cfg2.N) (p : Fin 2000) (k : Fin 128) :
    ((cfg2.win 0).blk t).view.emb (ix2 p k) = ix2 (rowAt t p) k := by
  obtain ⟨e0, e1, -⟩ := block_index t
  funext a; apply Fin.ext
  match a with
  | ⟨0, _⟩ => show win2_0.index t (0 : Fin 2) * 2000 + 1 * p.val = t.val * 2000 + p.val; omega
  | ⟨1, _⟩ => show win2_0.index t (1 : Fin 2) * 128 + 1 * k.val = k.val; omega

theorem emb_d (t : Fin cfg2.N) (p : Fin 2000) (u : Fin 1) :
    ((cfg2.win 1).blk t).view.emb (ix2 p u) = ix2 (rowAt t p) (0 : Fin 1) := by
  obtain ⟨-, -, e0, e1, -⟩ := block_index t
  funext a; apply Fin.ext
  match a with
  | ⟨0, _⟩ => show win2_1.index t (0 : Fin 2) * 2000 + 1 * p.val = t.val * 2000 + p.val; omega
  | ⟨1, _⟩ => show win2_1.index t (1 : Fin 2) * 1 + 1 * u.val = 0; have := u.isLt; omega

theorem emb_b (t : Fin cfg2.N) (u : Fin 1) (k : Fin 128) :
    ((cfg2.win 2).blk t).view.emb (ix2 u k) = ix2 (0 : Fin 1) k := by
  obtain ⟨-, -, -, -, e0, e1, -⟩ := block_index t
  funext a; apply Fin.ext
  match a with
  | ⟨0, _⟩ => show win2_2.index t (0 : Fin 2) * 1 + 1 * u.val = 0; have := u.isLt; omega
  | ⟨1, _⟩ => show win2_2.index t (1 : Fin 2) * 128 + 1 * k.val = k.val; omega

theorem emb_out (t : Fin cfg2.N) (p : Fin 2000) (q : Fin 128) :
    ((cfg2.win 3).blk t).view.emb (ix2 p q) = ix2 (rowAt t p) q := by
  obtain ⟨-, -, -, -, -, -, e0, e1⟩ := block_index t
  funext a; apply Fin.ext
  match a with
  | ⟨0, _⟩ => show win2_3.index t (0 : Fin 2) * 2000 + 1 * p.val = t.val * 2000 + p.val; omega
  | ⟨1, _⟩ => show win2_3.index t (1 : Fin 2) * 128 + 1 * q.val = q.val; omega

/-- What point t writes back is block t of the final layer of the arrays the region finds. -/
theorem point_writes (c : Dev nD) (t : Fin cfg2.N) :
    (dat2 V c).flushed 3 t = ((cfg2.win 3).blk t).view.read (Elt Ideal)
      (Gcn.finalLayer (V c main_v40) (V c main_v15) (V c main_v41)) := by
  show (cfg2.win 3).cut (grid2.coords t) ((dat2 V c).after 3 t) = _
  rw [after2_3]
  unfold out2_3
  rw [View.canon_unit_zero offset_zero]
  simp only [View.ld_unit_zero (S := S2000x128) offset_zero,
    View.ld_unit_zero (S := S2000x1) offset_zero, View.ld_unit_zero (S := S1x128) offset_zero]
  funext j
  obtain ⟨p, q, rfl⟩ : ∃ (p : Fin 2000) (q : Fin 128), j = ix2 p q := ⟨j 0, j 1, eq_ix2 j⟩
  refine (Body.pay2_apply _ _ _ p q).trans ?_
  show aA V c (((cfg2.win 0).blk t).view.emb (ix2 p q))
        * aD V c (((cfg2.win 1).blk t).view.emb (ix2 p (0 : Fin 1)))
        + aB V c (((cfg2.win 2).blk t).view.emb (ix2 (0 : Fin 1) q))
      = Gcn.finalLayer (V c main_v40) (V c main_v15) (V c main_v41) (((cfg2.win 3).blk t).view.emb (ix2 p q))
  rw [emb_out, emb_d, emb_a, emb_b]
  rfl

/-- An index of the result array is in point t's block iff each coordinate is in the block's range on its axis. -/
theorem mem_block (t : Fin cfg2.N) (i : S50000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v42).slice (win2_3.rect t)).set ↔ _
  rw [View.set_slice_whole, Rect.mem_set_unit]
  exact Iff.rfl

/-- Every index of the result array is in some point's block. -/
theorem covered (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := block_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- The result array after the region: the final layer of the arrays the region finds. -/
theorem value (c : Dev nD) :
    (dat2 V c).arrAt 3 cfg2.N = Gcn.finalLayer (V c main_v40) (V c main_v15) (V c main_v41) :=
  (dat2 V c).arrAt_eq_of_cover 3 _ (fun t _ => point_writes V c t) covered

end Cert.KernelIdeal.Region2

end
-- ==== Proof.LibRowAgg.lean ====
/-
  Rows of a node-by-feature array gathered through one column of index words and accumulated, from a constant, at the
  rows another column of index words names — the message passing step of a graph layer — read as one function.

  With extents N (nodes), D (features), M (edges): `gatherRows` is the array whose row e is the row of X that the
  source word of e names (read signed, clamped into the node range); `scatterRows z` is the array whose entry (n, d)
  is z plus the entries (e, d) of the updates over the edges e whose target word, read signed, is n. The host's
  gather followed by its accumulating scatter into a constant array is `scatterRows` of `gatherRows`
  (`gather_scatter`), whatever the extents are.
-/
import Idealize.ShloMosaic.PureOps.Ideal
import Idealize.ShloMosaic.Lib.ValueIdx
import proofs.«117656_j60876866453592_2_alg».proof.Proof.LibNodeScatter
import proofs.«117656_j60876866453592_2_alg».proof.Proof.LibHostRead

noncomputable section
open scoped BigOperators
namespace Cert.LibRowAgg

open Idealize.ShloMosaic Idealize.ShloMosaic.ValueIdx

variable {N D M w : Nat}

/-- Row e of the result is the row of X that word e of the column names. -/
def gatherRows (hN : 0 < N) (X : (⟨2, ![N, D]⟩ : Shape).Idx → EReal) (ic : IVec ⟨2, ![M, 1]⟩ w) :
    (⟨2, ![M, D]⟩ : Shape).Idx → EReal :=
  fun j => X (ix2 (LibNodes.nodeOf N hN (ic (ix2 (j 0) (0 : Fin 1)))) (j 1))

/-- Entry (n, d) of the result is z plus the entries (e, d) of U over the e whose word, read signed, is n. -/
def scatterRows (z : EReal) (ic : IVec ⟨2, ![M, 1]⟩ w) (U : (⟨2, ![M, D]⟩ : Shape).Idx → EReal) :
    (⟨2, ![N, D]⟩ : Shape).Idx → EReal :=
  fun i => z + ∑ e : Fin M, if (ic (ix2 e (0 : Fin 1))).toInt = ((i 0).val : ℤ) then U (ix2 e (i 1)) else 0

/-- The host's row gather followed by its accumulating row scatter into a constant array. -/
theorem gather_scatter (hN : 0 < N)
    (wf : ScatterDims.WF ⟨2, ![N, D]⟩ ⟨2, ![M, 1]⟩ ⟨2, ![M, D]⟩ [1] [0] [0] 1)
    (wfg : GatherDims.WF ⟨2, ![N, D]⟩ ⟨2, ![M, 1]⟩ ⟨2, ![M, D]⟩ [1] [0] [] [0] [] 1 ![1, D])
    (z0 : (⟨0, ![]⟩ : Shape).Idx → EReal) (hb : (⟨0, ![]⟩ : Shape).BroadcastsInDim ⟨2, ![N, D]⟩ ![])
    (X : (⟨2, ![N, D]⟩ : Shape).Idx → EReal) (sI tI : IVec ⟨2, ![M, 1]⟩ w) :
    Ideal.hostScatterAdd (LibNodes.nodeScatterDims N D M wf) (broadcastInDim ⟨2, ![N, D]⟩ ![] hb z0) tI
        (Host.gather (LibNodes.nodeGatherDims N D M wfg) X sI)
      = scatterRows (z0 ix0) tI (gatherRows hN X sI) := by
  funext i
  obtain ⟨p, q, rfl⟩ : ∃ (p : Fin N) (q : Fin D), i = ix2 p q := ⟨i 0, i 1, eq_ix2 i⟩
  rw [LibNodes.hostScatterAdd_nodes_apply, LibHostRead.bid_scalar_apply]
  refine congrArg (z0 ix0 + ·) (Finset.sum_congr rfl fun e _ => ?_)
  refine if_congr Iff.rfl ?_ rfl
  exact LibNodes.gather_nodes_apply hN wfg X sI e q

end Cert.LibRowAgg
end
-- ==== Proof.HostAgg.lean ====
/-
  The host stretch between two kernel regions: the rows of a node-by-feature array are gathered through the column
  of the edges' source words, and accumulated into zeros at the rows the column of target words names. Read at an
  entry (n, d) the result is 0 plus the sum, over the edges whose target word read signed is n, of entry d of the
  row the edge's source word names. (The gathered rows are widened from bf16 to f32 on the way, which is the
  identity on the extended reals.)
-/
import proofs.«117656_j60876866453592_2_alg».proof.Proof.Gen.KernelIdeal
import Idealize.ShloMosaic.PureOps.Ideal.Laws
import proofs.«117656_j60876866453592_2_alg».proof.Proof.LibNodeScatter
import proofs.«117656_j60876866453592_2_alg».proof.Proof.LibHostRead
import proofs.«117656_j60876866453592_2_alg».proof.Proof.LibRowAgg
import proofs.«117656_j60876866453592_2_alg».proof.Proof.GcnSpec

noncomputable section

namespace Cert.KernelIdeal.HostAgg

open Cert.KernelIdeal Cert.KernelIdeal.Gen Idealize.ShloMosaic Idealize.ShloMosaic.ValueIdx

/-- A vector of words as the one column of an index array. -/
abbrev col (v : IVec S850000 32) : IVec S850000x1 32 := broadcastInDim S850000x1 ![0] bcast_S850000_S850000x1_0 v

/-- Negative index words wrapped around the node range, as an index expression reads them. -/
abbrev wrap (v : IVec S850000 32) : IVec S850000 32 :=
  select (cmpi .slt v (broadcastInDim S850000 ![] bcast_S_S850000 (constantI S_ 32 0#32)))
    (addi v (broadcastInDim S850000 ![] bcast_S_S850000 (constantI S_ 32 50000#32))) v

/-- Widening the gathered rows from bf16 to f32 changes nothing on the extended reals. -/
theorem widen_eq (U : S850000x128.Idx → EReal) :
    extf (F := Ideal) .f32 (φ := .bf16) U bitsLt_bf16_f32 = U := rfl

/-- The specification's gather and scatter are the general ones at these extents. -/
theorem spec_eq (X : S50000x128.Idx → EReal) (sI tI : IVec S850000x1 32) :
    LibRowAgg.scatterRows (N := 50000) (D := 128) (M := 850000) 0 tI (LibRowAgg.gatherRows (by decide) X sI)
      = Gcn.scatterRows 0 tI (Gcn.gatherRows X sI) := rfl

theorem agg_eq (X : S50000x128.Idx → EReal) (sI tI : IVec S850000x1 32) :
    Host.scatterAdd (F := Ideal) scatter_S50000x128_S850000x1_S850000x128_1_0_0_1
      (broadcastInDim S50000x128 ![] bcast_S_S50000x128 (constant (F := Ideal) S_ .f32 0x00000000#32)) tI
      (extf (F := Ideal) .f32 (φ := .bf16) (Host.gather gather_S50000x128_S850000x1_S850000x128_1_0_n_n_0_1_1128 X sI) bitsLt_bf16_f32)
    = Gcn.scatterRows 0 tI (Gcn.gatherRows X sI) := by
  rw [widen_eq]
  refine (LibRowAgg.gather_scatter (N := 50000) (D := 128) (M := 850000) (by decide) scatter_S50000x128_S850000x1_S850000x128_1_0_0_1_wf gather_S50000x128_S850000x1_S850000x128_1_0_n_n_0_1_1128_wf
    (constant (F := Ideal) S_ .f32 0x00000000#32) bcast_S_S50000x128 X sI tI).trans ?_
  rw [constant_apply, Ideal.ofBits_zero_f32]
  exact spec_eq X sI tI

end Cert.KernelIdeal.HostAgg

end
-- ==== Proof.KernelValue.lean ====
/-
  The idealized kernel's result array as the specification's function of what the first region finds.

  The contents at the last boundary are read back through the fold: the third region leaves the final layer of the
  second stretch's sums; that stretch gathers the second region's rows through the source column and accumulates them at
  the target column; the second region leaves the fused layer of the first stretch's sums; that stretch gathers and
  accumulates the first region's rows; the first region leaves the scaled product. The index words, the factor column
  and the arguments are written before the first region and never again, so every later boundary finds them as the
  first region did.
-/
import proofs.«117656_j60876866453592_2_alg».proof.Proof.Region0
import proofs.«117656_j60876866453592_2_alg».proof.Proof.Region1
import proofs.«117656_j60876866453592_2_alg».proof.Proof.Region2
import proofs.«117656_j60876866453592_2_alg».proof.Proof.HostAgg
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg) (c : Dev nD)

/-! ## What the first region finds -/

/-- The edges' source words, wrapped, as an index column. -/
abbrev sCol : IVec S850000x1 32 := HostAgg.col (HostAgg.wrap (W3 m ρ c (Proc.devRef .tc main_v3)))
/-- The edges' target words as an index column. -/
abbrev tCol : IVec S850000x1 32 := HostAgg.col (W3 m ρ c (Proc.devRef .tc main_v6))
/-- The factor column. -/
abbrev dCol : S50000x1.Idx → EReal := W3 m ρ c (Proc.devRef .tc main_v15)

/-! ## The first region's exit -/

theorem W4_v3 : W4 m ρ c (Proc.devRef .tc main_v3) = W3 m ρ c (Proc.devRef .tc main_v3) := W4_of_ne m ρ c main_v3 (by decide)
theorem W4_v6 : W4 m ρ c (Proc.devRef .tc main_v6) = W3 m ρ c (Proc.devRef .tc main_v6) := W4_of_ne m ρ c main_v6 (by decide)
theorem W4_arg3 : W4 m ρ c (Proc.devRef .tc main_arg3) = W3 m ρ c (Proc.devRef .tc main_arg3) := W4_of_ne m ρ c main_arg3 (by decide)
theorem W4_arg4 : W4 m ρ c (Proc.devRef .tc main_arg4) = W3 m ρ c (Proc.devRef .tc main_arg4) := W4_of_ne m ρ c main_arg4 (by decide)
theorem W4_arg5 : W4 m ρ c (Proc.devRef .tc main_arg5) = W3 m ρ c (Proc.devRef .tc main_arg5) := W4_of_ne m ρ c main_arg5 (by decide)
theorem W4_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))
theorem W4_v16 : W4 m ρ c (Proc.devRef .tc main_v16)
    = Gcn.scaleMatmul (W3 m ρ c (Proc.devRef .tc main_arg0)) (W3 m ρ c (Proc.devRef .tc main_arg2)) (dCol m ρ c) :=
  (W4_arr m ρ c 3).trans (Region0.value (V3 m ρ) c)

/-! ## The first stretch between regions -/

theorem W5_v3 : W5 m ρ c (Proc.devRef .tc main_v3) = W3 m ρ c (Proc.devRef .tc main_v3) := by
  refine Eq.trans ?_ (W4_v3 m ρ c)
  show StableHlo.after hostOps1 (W4 m ρ c) (Proc.devRef .tc main_v3) = _
  after_results
theorem W5_v6 : W5 m ρ c (Proc.devRef .tc main_v6) = W3 m ρ c (Proc.devRef .tc main_v6) := by
  refine Eq.trans ?_ (W4_v6 m ρ c)
  show StableHlo.after hostOps1 (W4 m ρ c) (Proc.devRef .tc main_v6) = _
  after_results
theorem W5_v15 : W5 m ρ c (Proc.devRef .tc main_v15) = W3 m ρ c (Proc.devRef .tc main_v15) := by
  refine Eq.trans ?_ (W4_v15 m ρ c)
  show StableHlo.after hostOps1 (W4 m ρ c) (Proc.devRef .tc main_v15) = _
  after_results
theorem W5_arg4 : W5 m ρ c (Proc.devRef .tc main_arg4) = W3 m ρ c (Proc.devRef .tc main_arg4) := by
  refine Eq.trans ?_ (W4_arg4 m ρ c)
  show StableHlo.after hostOps1 (W4 m ρ c) (Proc.devRef .tc main_arg4) = _
  after_results
theorem W5_arg5 : W5 m ρ c (Proc.devRef .tc main_arg5) = W3 m ρ c (Proc.devRef .tc main_arg5) := by
  refine Eq.trans ?_ (W4_arg5 m ρ c)
  show StableHlo.after hostOps1 (W4 m ρ c) (Proc.devRef .tc main_arg5) = _
  after_results
theorem W5_v28 : W5 m ρ c (Proc.devRef .tc main_v28)
    = shapeCast S1x128 (W3 m ρ c (Proc.devRef .tc main_arg3)) shapeCasts_S128_S1x128 := by
  rw [← W4_arg3 m ρ c]
  show StableHlo.after hostOps1 (W4 m ρ c) (Proc.devRef .tc main_v28) = _
  after_results
  rfl
theorem W5_v27 : W5 m ρ c (Proc.devRef .tc main_v27)
    = Gcn.scatterRows 0 (tCol m ρ c) (Gcn.gatherRows (W4 m ρ c (Proc.devRef .tc main_v16)) (sCol m ρ c)) := by
  refine Eq.trans ?_ (HostAgg.agg_eq _ _ _)
  unfold sCol tCol
  rw [← W4_v3 m ρ c, ← W4_v6 m ρ c]
  show StableHlo.after hostOps1 (W4 m ρ c) (Proc.devRef .tc main_v27) = _
  after_results

/-! ## The second region's exit -/

theorem W6_v3 : W6 m ρ c (Proc.devRef .tc main_v3) = W3 m ρ c (Proc.devRef .tc main_v3) :=
  (W6_of_ne m ρ c main_v3 (by decide)).trans (W5_v3 m ρ c)
theorem W6_v6 : W6 m ρ c (Proc.devRef .tc main_v6) = W3 m ρ c (Proc.devRef .tc main_v6) :=
  (W6_of_ne m ρ c main_v6 (by decide)).trans (W5_v6 m ρ c)
theorem W6_arg5 : W6 m ρ c (Proc.devRef .tc main_arg5) = W3 m ρ c (Proc.devRef .tc main_arg5) :=
  (W6_of_ne m ρ c main_arg5 (by decide)).trans (W5_arg5 m ρ c)
theorem W6_v15 : W6 m ρ c (Proc.devRef .tc main_v15) = W3 m ρ c (Proc.devRef .tc main_v15) :=
  ((W6_arr m ρ c 1).trans (((dat1 (V5 m ρ) c).arrAt_in 1 rfl _).trans (A_eq1 (V5 m ρ) c 1))).trans (W5_v15 m ρ c)
theorem W6_v29 : W6 m ρ c (Proc.devRef .tc main_v29)
    = Gcn.fusedLayer 0 (W5 m ρ c (Proc.devRef .tc main_v27)) (W5 m ρ c (Proc.devRef .tc main_v15))
        (W5 m ρ c (Proc.devRef .tc main_v28)) (W5 m ρ c (Proc.devRef .tc main_arg4)) :=
  (W6_arr m ρ c 4).trans (Region1.value (V5 m ρ) c)

/-! ## The second stretch between regions -/

theorem W7_v15 : W7 m ρ c (Proc.devRef .tc main_v15) = W3 m ρ c (Proc.devRef .tc main_v15) := by
  refine Eq.trans ?_ (W6_v15 m ρ c)
  show StableHlo.after hostOps2 (W6 m ρ c) (Proc.devRef .tc main_v15) = _
  after_results
theorem W7_v41 : W7 m ρ c (Proc.devRef .tc main_v41)
    = shapeCast S1x128 (W3 m ρ c (Proc.devRef .tc main_arg5)) shapeCasts_S128_S1x128 := by
  rw [← W6_arg5 m ρ c]
  show StableHlo.after hostOps2 (W6 m ρ c) (Proc.devRef .tc main_v41) = _
  after_results
  rfl
theorem W7_v40 : W7 m ρ c (Proc.devRef .tc main_v40)
    = Gcn.scatterRows 0 (tCol m ρ c) (Gcn.gatherRows (W6 m ρ c (Proc.devRef .tc main_v29)) (sCol m ρ c)) := by
  refine Eq.trans ?_ (HostAgg.agg_eq _ _ _)
  unfold sCol tCol
  rw [← W6_v3 m ρ c, ← W6_v6 m ρ c]
  show StableHlo.after hostOps2 (W6 m ρ c) (Proc.devRef .tc main_v40) = _
  after_results

/-! ## The third region's exit, and the whole -/

theorem W8_v42 : W8 m ρ c (Proc.devRef .tc main_v42)
    = Gcn.finalLayer (W7 m ρ c (Proc.devRef .tc main_v40)) (W7 m ρ c (Proc.devRef .tc main_v15))
        (W7 m ρ c (Proc.devRef .tc main_v41)) :=
  (W8_arr m ρ c 3).trans (Region2.value (V7 m ρ) c)

/-- The result array at the last boundary: the specification's kernel function of the arguments, the factor column
    and the two index columns as the first region finds them. -/
theorem result_eq : W8 m ρ c (Proc.devRef .tc main_v42)
    = Gcn.kernelOut 0 (W3 m ρ c (Proc.devRef .tc main_arg0)) (W3 m ρ c (Proc.devRef .tc main_arg2))
        (shapeCast S1x128 (W3 m ρ c (Proc.devRef .tc main_arg3)) shapeCasts_S128_S1x128)
        (W3 m ρ c (Proc.devRef .tc main_arg4))
        (shapeCast S1x128 (W3 m ρ c (Proc.devRef .tc main_arg5)) shapeCasts_S128_S1x128)
        (dCol m ρ c) (sCol m ρ c) (tCol m ρ c) := by
  rw [W8_v42, W7_v40, W7_v15, W7_v41, W6_v29, W5_v27, W5_v15, W5_v28, W5_arg4, W4_v16]
  rfl

end Cert.KernelIdeal.KValue

end
-- ==== Proof.KernelEntry.lean ====
/-
  What the first kernel region finds: the index words, the factor column and the arguments, as host terms of the
  launch contents.

  Before the first region the host joins each row of the edge array with the node numbers 0 … 49999 (every node
  also sends to itself), counts for every node the target words that name it (the degree: ones accumulated into
  zeros), and takes the reciprocal square root of the degree where it is positive and zero elsewhere (the factor).
  The arguments are not written by any of these operations.
-/
import proofs.«117656_j60876866453592_2_alg».proof.Proof.KernelValue

set_option maxRecDepth 16384

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

/-- The edges' source words: row 0 of the edge array, then the node numbers. -/
def srcWords (E : IVec S2x800000 32) : IVec S850000 32 :=
  concatenate S850000 0 [⟨S800000, shapeCast S800000 (extractStridedSlice S1x800000 ![0, 0] E slices_S2x800000_S1x800000_0_0) shapeCasts_S1x800000_S800000⟩,
    ⟨S50000, iotaInDim S50000 32 0⟩] concatenates_S800000_S50000_S850000_d0

/-- The edges' target words: row 1 of the edge array, then the node numbers. -/
def dstWords (E : IVec S2x800000 32) : IVec S850000 32 :=
  concatenate S850000 0 [⟨S800000, shapeCast S800000 (extractStridedSlice S1x800000 ![1, 0] E slices_S2x800000_S1x800000_1_0) shapeCasts_S1x800000_S800000⟩,
    ⟨S50000, iotaInDim S50000 32 0⟩] concatenates_S800000_S50000_S850000_d0

/-- Every node's degree: ones accumulated into zeros at the nodes the target words name. -/
def degree (E : IVec S2x800000 32) : FVec Ideal S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 (dstWords E))
    (broadcastInDim S850000 ![] bcast_S_S850000 (constant (F := Ideal) S_ .f32 0x3F800000#32))

/-- Every node's factor: the reciprocal square root of a positive degree, zero elsewhere. -/
def dinv (E : IVec S2x800000 32) : FVec Ideal S50000 .f32 :=
  select (cmpf (F := Ideal) .ogt (degree E) (broadcastInDim S50000 ![] bcast_S_S50000 (constant (F := Ideal) S_ .f32 0x00000000#32)))
    (Host.rsqrt (F := Ideal) (degree E))
    (broadcastInDim S50000 ![] bcast_S_S50000 (id (constant (F := Ideal) S_ .f32 0x00000000#32)))

variable (m : (ℓ : Loc nD τ sig) → Buf (Elt Ideal) ℓ) (ρ : Dev nD → PrngReg) (c : Dev nD)

theorem W3_v3 : W3 m ρ c (Proc.devRef .tc main_v3) = srcWords (m ((c.tc : Thread nD τ).loc main_arg1)) := by
  show StableHlo.after hostOps0_2 (StableHlo.after hostOps0_1 (StableHlo.after hostOps0 (W0 m ρ c))) (Proc.devRef .tc main_v3) = _
  after_results_simp
  rfl

theorem W3_v6 : W3 m ρ c (Proc.devRef .tc main_v6) = dstWords (m ((c.tc : Thread nD τ).loc main_arg1)) := by
  show StableHlo.after hostOps0_2 (StableHlo.after hostOps0_1 (StableHlo.after hostOps0 (W0 m ρ c))) (Proc.devRef .tc main_v6) = _
  after_results_simp
  rfl

/-! The factor vector, one stage at a time: the degree, the test that it is positive, its reciprocal square root and
    the zero constant after the first stretch; the selection between them after the second. -/

theorem W1_v10 : W1 m ρ c (Proc.devRef .tc main_v10) = degree (m ((c.tc : Thread nD τ).loc main_arg1)) := by
  show StableHlo.after hostOps0 (W0 m ρ c) (Proc.devRef .tc main_v10) = _
  after_results_simp
  rfl

theorem W1_v12 : W1 m ρ c (Proc.devRef .tc main_v12)
    = cmpf (F := Ideal) .ogt (degree (m ((c.tc : Thread nD τ).loc main_arg1)))
        (broadcastInDim S50000 ![] bcast_S_S50000 (constant (F := Ideal) S_ .f32 0x00000000#32)) := by
  show StableHlo.after hostOps0 (W0 m ρ c) (Proc.devRef .tc main_v12) = _
  after_results_simp
  rfl

theorem W1_v13 : W1 m ρ c (Proc.devRef .tc main_v13) = Host.rsqrt (F := Ideal) (degree (m ((c.tc : Thread nD τ).loc main_arg1))) := by
  show StableHlo.after hostOps0 (W0 m ρ c) (Proc.devRef .tc main_v13) = _
  after_results_simp
  rfl

theorem W1_cst2 : W1 m ρ c (Proc.devRef .tc main_cst_2) = constant (F := Ideal) S_ .f32 0x00000000#32 := by
  show StableHlo.after hostOps0 (W0 m ρ c) (Proc.devRef .tc main_cst_2) = _
  after_results_simp

/-- The factor vector before it is laid out as a column. -/
theorem W2_v14 : W2 m ρ c (Proc.devRef .tc main_v14) = dinv (m ((c.tc : Thread nD τ).loc main_arg1)) := by
  have h12 := W1_v12 m ρ c
  have h13 := W1_v13 m ρ c
  have hc2 := W1_cst2 m ρ c
  show StableHlo.after hostOps0_1 (W1 m ρ c) (Proc.devRef .tc main_v14) = _
  unfold dinv
  rw [← h12, ← h13, ← hc2]
  generalize W1 m ρ c = V1
  after_results_simp
  rfl

theorem W3_v15 : W3 m ρ c (Proc.devRef .tc main_v15)
    = shapeCast S50000x1 (dinv (m ((c.tc : Thread nD τ).loc main_arg1))) shapeCasts_S50000_S50000x1 := by
  rw [← W2_v14 m ρ c]
  show StableHlo.after hostOps0_2 (W2 m ρ c) (Proc.devRef .tc main_v15) = _
  generalize W2 m ρ c = V2
  after_results_simp
  rfl

theorem W3_arg0 : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  after_results_simp
theorem W3_arg2 : W3 m ρ c (Proc.devRef .tc main_arg2) = m ((c.tc : Thread nD τ).loc main_arg2) := by
  show StableHlo.after hostOps0_2 (StableHlo.after hostOps0_1 (StableHlo.after hostOps0 (W0 m ρ c))) (Proc.devRef .tc main_arg2) = _
  after_results_simp
theorem W3_arg3 : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  after_results_simp
theorem W3_arg4 : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  after_results_simp
theorem W3_arg5 : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  after_results_simp

/-- The result array at the last boundary as the specification's kernel function of the launch contents. -/
theorem result_eq : W8 m ρ c (Proc.devRef .tc main_v42)
    = Gcn.kernelOut 0 (m ((c.tc : Thread nD τ).loc main_arg0)) (m ((c.tc : Thread nD τ).loc main_arg2))
        (shapeCast S1x128 (m ((c.tc : Thread nD τ).loc main_arg3)) shapeCasts_S128_S1x128)
        (m ((c.tc : Thread nD τ).loc main_arg4))
        (shapeCast S1x128 (m ((c.tc : Thread nD τ).loc main_arg5)) shapeCasts_S128_S1x128)
        (shapeCast S50000x1 (dinv (m ((c.tc : Thread nD τ).loc main_arg1))) shapeCasts_S50000_S50000x1)
        (HostAgg.col (HostAgg.wrap (srcWords (m ((c.tc : Thread nD τ).loc main_arg1)))))
        (HostAgg.col (dstWords (m ((c.tc : Thread nD τ).loc main_arg1)))) := by
  rw [KValue.result_eq]
  unfold KValue.dCol KValue.sCol KValue.tCol
  rw [W3_v3, W3_v6, W3_v15, W3_arg0, W3_arg2, W3_arg3, W3_arg4, W3_arg5]

end Cert.KernelIdeal.Entry

end
-- ==== Proof.LibScatter1.lean ====
/-
  Single entries accumulated into a vector through a column of index words, read at an index.

  The operand is a vector of `N` entries; the indices are a column of `M` words, each naming an entry; the updates
  are a vector of `M` entries. An ACCUMULATING SCATTER adds update entry `e` to operand entry `idx[e]` (the word
  read signed; an entry outside `[0, N)` is dropped). On the extended reals entry `n` of the result is the
  operand's entry plus the sum, over the `e` with `idx[e] = n`, of update entry `e` (`hostScatterAdd_entries_apply`),
  because update entry `e` lands exactly at `idx[e]` (`resultIdx?_entries`).
-/
import Idealize.ShloMosaic.PureOps.Ideal
import Idealize.ShloMosaic.Lib.ValueIdx

noncomputable section
open scoped BigOperators
namespace Cert.LibScatter1

open Idealize.ShloMosaic Idealize.ShloMosaic.ValueIdx

/-- The dimension numbers of a scatter of single entries into a vector: the updates have no window axis, the one
    operand axis is the inserted one and the one the index names. -/
abbrev entryScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

variable {N M w : Nat} (wf : ScatterDims.WF ⟨1, ![N]⟩ ⟨2, ![M, 1]⟩ ⟨1, ![M]⟩ [] [0] [0] 1)

/-- On the one operand axis an update's start is its index word, read signed. -/
theorem start0 (j : (⟨1, ![M]⟩ : Shape).Idx) (idx : IVec ⟨2, ![M, 1]⟩ w) :
    (entryScatterDims N M wf).start j idx 0 = (idx (ix2 (j 0) (0 : Fin 1))).toInt := by
  unfold ScatterDims.start
  rw [dif_pos (show (0 : Fin 1) ∈ (entryScatterDims N M wf).scatterDimsToOperandDims from List.mem_singleton.mpr rfl)]
  congr 2
  funext b; refine Fin.ext ?_
  match b with
  | ⟨0, _⟩ => rfl
  | ⟨1, _⟩ => rfl

/-- Update entry `e` lands at `n` exactly when its index word, read signed, is `n`. -/
theorem resultIdx?_entries (e : Fin M) (idx : IVec ⟨2, ![M, 1]⟩ w) (n : Fin N) :
    (entryScatterDims N M wf).resultIdx? (ix1 e) idx = some (ix1 n) ↔
      (idx (ix2 e (0 : Fin 1))).toInt = (n.val : ℤ) := by
  have hs : (entryScatterDims N M wf).start (ix1 e) idx 0 = (idx (ix2 e (0 : Fin 1))).toInt := start0 wf _ idx
  unfold ScatterDims.resultIdx?
  split
  · next h =>
    rw [Option.some.injEq]
    constructor
    · intro hf
      have h0 := congrArg (fun f => (f 0).val) hf
      have g0 := (h 0).1
      simp only at h0
      have e1 : ((entryScatterDims N M wf).start (ix1 e) idx 0 + ((0 : ℕ) : ℤ)).toNat = n.val := h0
      have e2 : 0 ≤ (entryScatterDims N M wf).start (ix1 e) idx 0 + ((0 : ℕ) : ℤ) := g0
      rw [hs] at e1 e2
      omega
    · intro hx
      funext a
      refine Fin.ext ?_
      match a with
      | ⟨0, _⟩ =>
        show ((entryScatterDims N M wf).start (ix1 e) idx 0 + ((0 : ℕ) : ℤ)).toNat = n.val
        rw [hs, hx]; omega
  · next h =>
    constructor
    · intro hf; exact absurd hf (by simp)
    · intro hx
      exfalso; apply h
      intro a
      match a with
      | ⟨0, _⟩ =>
        show 0 ≤ (entryScatterDims N M wf).start (ix1 e) idx 0 + ((0 : ℕ) : ℤ)
          ∧ (entryScatterDims N M wf).start (ix1 e) idx 0 + ((0 : ℕ) : ℤ) < ((N : ℕ) : ℤ)
        rw [hs, hx]; have := n.isLt; omega

/-- The accumulating entry scatter read at `n`: the operand's entry plus the update entries `e` whose index
    word names entry `n`. -/
theorem hostScatterAdd_entries_apply (x : (⟨1, ![N]⟩ : Shape).Idx → EReal) (idx : IVec ⟨2, ![M, 1]⟩ w)
    (upd : (⟨1, ![M]⟩ : Shape).Idx → EReal) (n : Fin N) :
    Ideal.hostScatterAdd (entryScatterDims N M wf) x idx upd (ix1 n)
      = x (ix1 n) + ∑ e : Fin M, if (idx (ix2 e (0 : Fin 1))).toInt = (n.val : ℤ) then upd (ix1 e) else 0 := by
  unfold Ideal.hostScatterAdd
  refine congrArg (x (ix1 n) + ·) ?_
  rw [← Finset.sum_filter]
  refine Finset.sum_nbij' (fun j => (j 0 : Fin M)) (fun e => ix1 e) ?_ ?_ ?_ ?_ ?_
  · intro j hj
    have hj' := (Finset.mem_filter.mp hj).2
    rw [eq_ix1 j] at hj'
    exact Finset.mem_filter.mpr ⟨Finset.mem_univ _, (resultIdx?_entries wf _ idx n).mp hj'⟩
  · intro e he
    have he' := (Finset.mem_filter.mp he).2
    exact Finset.mem_filter.mpr ⟨Finset.mem_univ _, (resultIdx?_entries wf e idx n).mpr he'⟩
  · intro j _
    exact (eq_ix1 j).symm
  · intro e _; rfl
  · intro j _
    exact congrArg upd (eq_ix1 j)

end Cert.LibScatter1
end
-- ==== Proof.LibGather1.lean ====
/-
  Entries of a vector gathered through a column of index words, read at an index.

  The operand is a vector of `N` entries; the indices are a column of `M` words, each naming an entry; the result
  is a vector of `M` entries. Result entry `e` is the operand's entry `idx[e]`, the word read signed and clamped
  into `[0, N − 1]`.
-/
import Idealize.ShloMosaic.PureOps.Ideal
import Idealize.ShloMosaic.Lib.ValueIdx

noncomputable section
namespace Cert.LibGather1

open Idealize.ShloMosaic Idealize.ShloMosaic.ValueIdx

/-- The dimension numbers of a gather of single entries of a vector: a column of `M` start indices, the one
    operand axis collapsed, no window axis in the result. -/
abbrev entryGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The entry a start-index word names: read signed and clamped into `[0, N − 1]`. -/
def entryOf (N : Nat) (hN : 0 < N) {w : Nat} (x : BitVec w) : Fin N := ⟨min x.toInt.toNat (N - 1), by omega⟩

/-- The entry gather read at `e`: the operand at the entry `idx[e]` names. -/
theorem gather_entries_apply {α : Type} {N M w : Nat} (hN : 0 < N)
    (wfg : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (entryGatherDims N M wfg) x idx (ix1 e) = x (ix1 (entryOf N hN (idx (ix2 e (0 : Fin 1))))) := by
  unfold Host.gather
  refine congrArg x (funext fun a => Fin.ext ?_)
  obtain rfl : a = 0 := Subsingleton.elim _ _
  have hst : (entryGatherDims N M wfg).start (ix1 e) idx 0 = min (idx (ix2 e (0 : Fin 1))).toInt.toNat (N - 1) := by
    unfold GatherDims.start
    rw [dif_pos (show (0 : Fin 1) ∈ (entryGatherDims N M wfg).startIndexMap from List.mem_singleton.mpr rfl)]
    have hsi : (entryGatherDims N M wfg).siIdx (ix1 e) ⟨List.idxOf (0 : Fin 1) (entryGatherDims N M wfg).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  show (entryGatherDims N M wfg).start (ix1 e) idx 0 + (entryGatherDims N M wfg).batchCoord (ix1 e) 0
    + (entryGatherDims N M wfg).offCoord (ix1 e) 0 = min (idx (ix2 e (0 : Fin 1))).toInt.toNat (N - 1)
  have h2 : (entryGatherDims N M wfg).batchCoord (ix1 e) 0 = 0 := rfl
  have h3 : (entryGatherDims N M wfg).offCoord (ix1 e) 0 = 0 := rfl
  rw [hst, h2, h3]; rfl

end Cert.LibGather1
end
-- ==== Proof.RefValue.lean ====
/-
  The reference program's result, read as the two-layer graph convolution of the specification.

  The reference joins each row of the edge array with the self-loop indices 0 … 49999 (850000 index words per row),
  counts for every node n the words of the target row that read n (its degree), takes d(n) = 1/√degree(n) where the
  degree is positive and 0 elsewhere, and weights edge e by d(s(e)) · d(t(e)), where s(e), t(e) are the nodes the
  source and target words of e name once a negative word has had 50000 added and the word is clamped into the node
  range. A layer multiplies the node features by the weights, reads the product's row s(e) for every edge e, scales
  it by the edge weight, adds it to row n for every e whose target word reads n, and adds the bias; the result is
  two layers with a rectification in between.

  Each operation is read at one index: a product of matrices as the sum over the contracted axis, a row gather as the
  row the index word names, an accumulating scatter as the sum over the edges whose word reads the row, a repeated
  column or row as its one entry. What is left is the specification's layer, term for term.
-/
import proofs.«117656_j60876866453592_2_alg».proof.Proof.RefRun
import proofs.«117656_j60876866453592_2_alg».proof.Proof.GcnSpec
import proofs.«117656_j60876866453592_2_alg».proof.Proof.LibHostRead
import proofs.«117656_j60876866453592_2_alg».proof.Proof.LibNodeScatter
import proofs.«117656_j60876866453592_2_alg».proof.Proof.LibScatter1
import proofs.«117656_j60876866453592_2_alg».proof.Proof.LibGather1
import proofs.«117656_j60876866453592_2_alg».proof.Proof.LibFactorSum
import proofs.«117656_j60876866453592_2_alg».proof.Proof.LibRowAgg
import Idealize.ShloMosaic.Lib.ValueIdx
import Idealize.ShloMosaic.PureOps.Ideal.Laws

noncomputable section
open scoped BigOperators

namespace Cert.ReferenceIdeal.RefValue

open Cert.ReferenceIdeal Cert.ReferenceIdeal.Gen Idealize.ShloMosaic Idealize.ShloMosaic.ValueIdx

/-! ## The pieces of the reference's result -/

/-- The source words: row 0 of the edge array followed by the self-loop indices. -/
def srcWords (E : IVec S2x800000 32) : IVec S850000 32 :=
  concatenate S850000 0 [⟨S800000, (shapeCast _ (extractStridedSlice S1x800000 ![0, 0] E slices_S2x800000_S1x800000_0_0) shapeCasts_S1x800000_S800000)⟩, ⟨S50000, (iotaInDim S50000 32 0)⟩] concatenates_S800000_S50000_S850000_d0

/-- The target words: row 1 of the edge array followed by the self-loop indices. -/
def dstWords (E : IVec S2x800000 32) : IVec S850000 32 :=
  concatenate S850000 0 [⟨S800000, (shapeCast _ (extractStridedSlice S1x800000 ![1, 0] E slices_S2x800000_S1x800000_1_0) shapeCasts_S1x800000_S800000)⟩, ⟨S50000, (iotaInDim S50000 32 0)⟩] concatenates_S800000_S50000_S850000_d0

/-- A word below zero, read signed, has 50000 added; any other word is kept. -/
def wrapIdx (v : IVec S850000 32) : IVec S850000 32 :=
  select (cmpi .slt v (broadcastInDim S850000 ![] bcast_S_S850000 (constantI S_ 32 0#32))) (addi v (broadcastInDim S850000 ![] bcast_S_S850000 (constantI S_ 32 50000#32))) v

/-- A vector over the edges as the one column of an edge-by-one array. -/
def col {α : Type} (v : S850000.Idx → α) : S850000x1.Idx → α :=
  broadcastInDim S850000x1 ![0] bcast_S850000_S850000x1_0 v

/-- The degree of every node: the number of target words that read it. -/
def degree (E : IVec S2x800000 32) : FVec Ideal S50000 .f32 :=
  Host.scatterAdd scatter_S50000_S850000x1_S850000_n_0_0_1 (broadcastInDim S50000 ![] bcast_S_S50000 (constant S_ .f32 0x00000000#32)) (col (dstWords E)) (broadcastInDim S850000 ![] bcast_S_S850000 (constant S_ .f32 0x3F800000#32))

/-- The normalisation factor of every node: the reciprocal square root of a positive degree, zero elsewhere. -/
def dinv (E : IVec S2x800000 32) : FVec Ideal S50000 .f32 :=
  select (cmpf (F := Ideal) .ogt (degree E) (broadcastInDim S50000 ![] bcast_S_S50000 (constant S_ .f32 0x00000000#32))) (Host.rsqrt (degree E)) (broadcastInDim S50000 ![] bcast_S_S50000 (id (constant S_ .f32 0x00000000#32)))

/-- The edge weights as the reference computes them: the factor at the source node times the factor at the target node. -/
def nrmVec (E : IVec S2x800000 32) : FVec Ideal S850000 .f32 :=
  mulf (Host.gather gather_S50000_S850000x1_S850000_n_0_n_n_0_1_1 (dinv E) (col (wrapIdx (srcWords E)))) (Host.gather gather_S50000_S850000x1_S850000_n_0_n_n_0_1_1 (dinv E) (col (wrapIdx (dstWords E))))

/-- The weight of edge e. -/
def nrm (E : IVec S2x800000 32) (e : Fin 850000) : EReal :=
  dinv E (ix1 (Gcn.nd (col (wrapIdx (srcWords E)) (ix2 e (0 : Fin 1))))) * dinv E (ix1 (Gcn.nd (col (wrapIdx (dstWords E)) (ix2 e (0 : Fin 1)))))

/-- One layer of the reference as the program computes it. -/
def layer (E : IVec S2x800000 32) (X : FVec Ideal S50000x128 .f32) (w : FVec Ideal S128x128 .f32) (b : FVec Ideal S128 .f32) :
    FVec Ideal S50000x128 .f32 :=
  addf (Host.scatterAdd scatter_S50000x128_S850000x1_S850000x128_1_0_0_1 (broadcastInDim S50000x128 ![] bcast_S_S50000x128 (constant S_ .f32 0x00000000#32)) (col (dstWords E)) (mulf (Host.gather gather_S50000x128_S850000x1_S850000x128_1_0_n_n_0_1_1128 (Host.dotGeneral dot_S50000x128_S128x128_S50000x128_1_0_0_1_n_n none X w) (col (wrapIdx (srcWords E)))) (broadcastInDim S850000x128 ![0, 1] bcast_S850000x1_S850000x128_0_1 (col (nrmVec E))))) (broadcastInDim S50000x128 ![0, 1] bcast_S1x128_S50000x128_0_1 (broadcastInDim S1x128 ![1] bcast_S128_S1x128_1 b))

/-! ## Reading the small pieces at an index -/

/-- The zero array reads 0 everywhere. -/
theorem zeros_apply {t : Shape} (h : S_.BroadcastsInDim t (![] : Fin 0 → Fin t.rank)) (i : t.Idx) :
    broadcastInDim t ![] h (constant (F := Ideal) S_ .f32 0x00000000#32) i = 0 := by
  rw [LibHostRead.bid_scalar_apply, constant_apply, Ideal.ofBits_zero_f32]

/-- The one column of a vector over the edges reads the vector's entry of that row. -/
theorem col_apply {α : Type} (v : S850000.Idx → α) (e : Fin 850000) (u : Fin 1) : col v (ix2 e u) = v (ix1 e) :=
  LibHostRead.bid_a_a1_apply v bcast_S850000_S850000x1_0 e u

/-- A word that reads, signed, as a number that is not negative is kept. -/
theorem wrapIdx_apply_of_nonneg (v : IVec S850000 32) (e : Fin 850000) (h : 0 ≤ (v (ix1 e)).toInt) :
    wrapIdx v (ix1 e) = v (ix1 e) := by
  unfold wrapIdx
  rw [select_apply]
  have hc : cmpi .slt v (broadcastInDim S850000 ![] bcast_S_S850000 (constantI S_ 32 0#32)) (ix1 e) = 0#1 := by
    show IntOp.cmpi .slt (v (ix1 e)) (broadcastInDim S850000 ![] bcast_S_S850000 (constantI S_ 32 0#32) (ix1 e)) = 0#1
    rw [LibHostRead.bid_scalar_apply]
    show BitVec.ofBool (decide ((v (ix1 e)).toInt < (0#32 : BitVec 32).toInt)) = 0#1
    have h0 : (0#32 : BitVec 32).toInt = 0 := by decide
    rw [h0, decide_eq_false (not_lt.mpr h)]
    rfl
  rw [hc, select_zero]

/-- The reference's product of the features by the weights is a plain product of matrices: the left operand is read
    at (row, contracted coordinate) and the right one at (contracted coordinate, column). -/
theorem plain : LibHostRead.PlainDot dot_S50000x128_S128x128_S50000x128_1_0_0_1_n_n where
  hr := rfl
  hs := rfl
  hl0 := fun i q => by
    unfold DotDims.lhsIdx
    rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
    rfl
  hl1 := fun i q => dot_S50000x128_S128x128_S50000x128_1_0_0_1_n_n.lhsIdx_val_of_single rfl i q
  hr0 := fun i q => dot_S50000x128_S128x128_S50000x128_1_0_0_1_n_n.rhsIdx_val_of_single rfl i q
  hr1 := fun i q => by
    unfold DotDims.rhsIdx
    rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
    rfl

/-- The weight the reference computes for edge e is the product of the two factors the edge's nodes carry. -/
theorem nrmVec_apply (E : IVec S2x800000 32) (e : Fin 850000) : nrmVec E (ix1 e) = nrm E e := by
  unfold nrmVec nrm
  rw [mulf_apply]
  refine congrArg₂ (· * ·) ?_ ?_
  · exact LibGather1.gather_entries_apply (by decide) gather_S50000_S850000x1_S850000_n_0_n_n_0_1_1_wf (dinv E) (col (wrapIdx (srcWords E))) e
  · exact LibGather1.gather_entries_apply (by decide) gather_S50000_S850000x1_S850000_n_0_n_n_0_1_1_wf (dinv E) (col (wrapIdx (dstWords E))) e

/-! ## One layer

The reading is done once with the extents as variables — N nodes, D features, M edges — and used at the program's
extents afterwards. -/

section AnyExtents
variable {N D M : Nat}

/-- One layer of the specification with the extents as variables: at (n, d), z plus the sum over the edges whose target
    word reads n of entry d of the row of Y at the edge's source node, times the edge weight; plus the bias at d. -/
def convG (hN : 0 < N) (z : EReal) (Y : (⟨2, ![N, D]⟩ : Shape).Idx → EReal) (nv : Fin M → EReal)
    (sI tI : IVec ⟨2, ![M, 1]⟩ 32) (b : Fin D → EReal) : (⟨2, ![N, D]⟩ : Shape).Idx → EReal :=
  fun i => LibRowAgg.scatterRows z tI (fun j => LibRowAgg.gatherRows hN Y sI j * nv (j 0)) i + b (i 1)

/-- The layer's operations read at every index: rows of Y gathered through the source column, each scaled by its
    edge's weight (the weight vector as a column repeated along the features), accumulated from the zero array at the
    rows the target column names, the bias vector added as a row repeated along the nodes. Y, the weights and the
    bias may be given by their values (Y', nv', b'). -/
theorem conv_read (hN : 0 < N)
    (wf : ScatterDims.WF ⟨2, ![N, D]⟩ ⟨2, ![M, 1]⟩ ⟨2, ![M, D]⟩ [1] [0] [0] 1)
    (wfg : GatherDims.WF ⟨2, ![N, D]⟩ ⟨2, ![M, 1]⟩ ⟨2, ![M, D]⟩ [1] [0] [] [0] [] 1 ![1, D])
    (hz : (⟨0, ![]⟩ : Shape).BroadcastsInDim ⟨2, ![N, D]⟩ ![])
    (hc : (⟨1, ![M]⟩ : Shape).BroadcastsInDim ⟨2, ![M, 1]⟩ ![0])
    (hcd : (⟨2, ![M, 1]⟩ : Shape).BroadcastsInDim ⟨2, ![M, D]⟩ ![0, 1])
    (hb : (⟨1, ![D]⟩ : Shape).BroadcastsInDim ⟨2, ![1, D]⟩ ![1])
    (hbd : (⟨2, ![1, D]⟩ : Shape).BroadcastsInDim ⟨2, ![N, D]⟩ ![0, 1])
    (Y : FVec Ideal ⟨2, ![N, D]⟩ .f32) (Y' : (⟨2, ![N, D]⟩ : Shape).Idx → EReal) (sI tI : IVec ⟨2, ![M, 1]⟩ 32)
    (nv : FVec Ideal ⟨1, ![M]⟩ .f32) (nv' : Fin M → EReal) (b : FVec Ideal ⟨1, ![D]⟩ .f32) (b' : Fin D → EReal)
    (hY : ∀ (n : Fin N) (d : Fin D), Y (ix2 n d) = Y' (ix2 n d)) (hnv : ∀ e : Fin M, nv (ix1 e) = nv' e)
    (hb' : ∀ d : Fin D, b (ix1 d) = b' d) :
    addf (Host.scatterAdd (LibNodes.nodeScatterDims N D M wf)
          (broadcastInDim ⟨2, ![N, D]⟩ ![] hz (constant (F := Ideal) ⟨0, ![]⟩ .f32 0x00000000#32)) tI
          (mulf (Host.gather (LibNodes.nodeGatherDims N D M wfg) Y sI)
            (broadcastInDim ⟨2, ![M, D]⟩ ![0, 1] hcd (broadcastInDim ⟨2, ![M, 1]⟩ ![0] hc nv))))
        (broadcastInDim ⟨2, ![N, D]⟩ ![0, 1] hbd (broadcastInDim ⟨2, ![1, D]⟩ ![1] hb b))
      = convG hN 0 Y' nv' sI tI b' := by
  funext i
  obtain ⟨p, q, rfl⟩ : ∃ (p : Fin N) (q : Fin D), i = ix2 p q := ⟨i 0, i 1, eq_ix2 i⟩
  rw [addf_apply]
  show _ = (0 + ∑ e : Fin M, if (tI (ix2 e (0 : Fin 1))).toInt = (p.val : ℤ)
      then Y' (ix2 (LibNodes.nodeOf N hN (sI (ix2 e (0 : Fin 1)))) q) * nv' e else 0) + b' q
  refine congrArg₂ (· + ·) ?_ ?_
  · refine (LibNodes.hostScatterAdd_nodes_apply wf _ tI _ p q).trans ?_
    rw [LibHostRead.bid_scalar_apply, constant_apply, Ideal.ofBits_zero_f32]
    refine congrArg (0 + ·) (Finset.sum_congr rfl fun e _ => ?_)
    refine if_congr Iff.rfl ?_ rfl
    rw [mulf_apply]
    refine congrArg₂ (· * ·) ?_ ?_
    · exact (LibNodes.gather_nodes_apply hN wfg Y sI e q).trans (hY _ q)
    · rw [LibHostRead.bid_a1_ab_apply, LibHostRead.bid_a_a1_apply, hnv]
  · rw [LibHostRead.bid_1b_ab_apply, LibHostRead.bid_b_1b_apply, hb']

end AnyExtents

/-- At the program's extents that layer is the specification's. -/
theorem convG_eq (X : Gcn.SN.Idx → EReal) (w : Gcn.SW.Idx → EReal) (nv : Fin 850000 → EReal) (sI tI : IVec Gcn.SI 32)
    (b : Fin 128 → EReal) :
    convG (N := 50000) (D := 128) (M := 850000) (by decide) 0 (Gcn.mm X w) nv sI tI b = Gcn.convR 0 X w nv sI tI b := rfl

/-- One layer as the program computes it is the specification's layer. -/
theorem layer_eq (E : IVec S2x800000 32) (X : FVec Ideal S50000x128 .f32) (w : FVec Ideal S128x128 .f32) (b : FVec Ideal S128 .f32) :
    layer E X w b = Gcn.convR 0 X w (nrm E) (col (wrapIdx (srcWords E))) (col (dstWords E)) (fun q => b (ix1 q)) := by
  unfold layer
  refine (conv_read (N := 50000) (D := 128) (M := 850000) (by decide)
    scatter_S50000x128_S850000x1_S850000x128_1_0_0_1_wf gather_S50000x128_S850000x1_S850000x128_1_0_n_n_0_1_1128_wf
    bcast_S_S50000x128 bcast_S850000_S850000x1_0 bcast_S850000x1_S850000x128_0_1 bcast_S128_S1x128_1 bcast_S1x128_S50000x128_0_1
    (Host.dotGeneral dot_S50000x128_S128x128_S50000x128_1_0_0_1_n_n none X w) (Gcn.mm X w)
    (col (wrapIdx (srcWords E))) (col (dstWords E)) (nrmVec E) (nrm E) b (fun q => b (ix1 q))
    (fun n d => LibHostRead.dotGeneral_plain_apply dot_S50000x128_S128x128_S50000x128_1_0_0_1_n_n plain X w n d)
    (nrmVec_apply E) (fun _ => rfl)).trans ?_
  exact convG_eq X w (nrm E) _ _ _

/-! ## The result -/

/-- Two of the program's layers with the rectification against the zero array in between are the specification's
    result. -/
theorem two_layers (E : IVec S2x800000 32) (x : FVec Ideal S50000x128 .f32) (w1 : FVec Ideal S128x128 .f32) (b1 : FVec Ideal S128 .f32)
    (w2 : FVec Ideal S128x128 .f32) (b2 : FVec Ideal S128 .f32) :
    layer E (maximumf (layer E x w1 b1) (broadcastInDim S50000x128 ![] bcast_S_S50000x128 (constant (F := Ideal) S_ .f32 0x00000000#32))) w2 b2
      = Gcn.refOut 0 x w1 (fun q => b1 (ix1 q)) w2 (fun q => b2 (ix1 q)) (nrm E) (col (wrapIdx (srcWords E))) (col (dstWords E)) := by
  have hrelu : maximumf (layer E x w1 b1) (broadcastInDim S50000x128 ![] bcast_S_S50000x128 (constant (F := Ideal) S_ .f32 0x00000000#32))
      = fun i => max (Gcn.convR 0 x w1 (nrm E) (col (wrapIdx (srcWords E))) (col (dstWords E)) (fun q => b1 (ix1 q)) i) 0 := by
    funext i
    rw [maximumf_apply, zeros_apply, layer_eq]
  rw [hrelu, layer_eq]
  rfl

set_option maxRecDepth 8192 in
/-- The reference's result is two layers with a rectification against the zero array in between: the program's term,
    folded. -/
theorem res_eq_layers (m : (ℓ : Loc nD τ sig) → Buf (Elt Ideal) ℓ) (c : Dev nD) :
    ValueP.res_main_v64 (F := Ideal) m c
      = layer (m ((c.tc : Thread nD τ).loc main_arg1))
          (maximumf (layer (m ((c.tc : Thread nD τ).loc main_arg1)) (m ((c.tc : Thread nD τ).loc main_arg0)) (m ((c.tc : Thread nD τ).loc main_arg2)) (m ((c.tc : Thread nD τ).loc main_arg3)))
            (broadcastInDim S50000x128 ![] bcast_S_S50000x128 (constant S_ .f32 0x00000000#32)))
          (m ((c.tc : Thread nD τ).loc main_arg4)) (m ((c.tc : Thread nD τ).loc main_arg5)) := rfl

/-- THE REFERENCE'S VALUE: its result is the specification's two-layer convolution of the argument arrays, with the
    edge weights, the source column and the target column the program builds from the edge array. -/
theorem ref_value (m : (ℓ : Loc nD τ sig) → Buf (Elt Ideal) ℓ) (c : Dev nD) :
    ValueP.res_main_v64 (F := Ideal) m c
      = Gcn.refOut 0 (m ((c.tc : Thread nD τ).loc main_arg0)) (m ((c.tc : Thread nD τ).loc main_arg2))
          (fun q => m ((c.tc : Thread nD τ).loc main_arg3) (ix1 q)) (m ((c.tc : Thread nD τ).loc main_arg4))
          (fun q => m ((c.tc : Thread nD τ).loc main_arg5) (ix1 q)) (nrm (m ((c.tc : Thread nD τ).loc main_arg1)))
          (col (wrapIdx (srcWords (m ((c.tc : Thread nD τ).loc main_arg1))))) (col (dstWords (m ((c.tc : Thread nD τ).loc main_arg1)))) :=
  (res_eq_layers m c).trans (two_layers _ _ _ _ _ _)

/-- A comparison "greater than" that answers 1 holds on the extended reals. -/
theorem lt_of_cmp_ogt {x y : EReal} (h : Ideal.cmp .ogt x y = 1#1) : y < x := by
  have h2 : BitVec.ofBool (@decide (y < x) _) = 1#1 := h
  by_cases hlt : y < x
  · exact hlt
  · rw [decide_eq_false hlt] at h2
    exact absurd h2 (by decide)

/-- The host's reciprocal square root at an index is the extended reals' reciprocal square root of the element. -/
theorem hostRsqrt_apply {s : Shape} (x : FVec Ideal s .f32) (i : s.Idx) : Host.rsqrt x i = Ideal.rsqrt (x i) := rfl

/-- The factor of node n is the reciprocal square root of its degree where the degree is positive, and zero elsewhere. -/
theorem dinv_apply (E : IVec S2x800000 32) (n : Fin 50000) :
    dinv E (ix1 n) = Scalar.select (Ideal.cmp .ogt (degree E (ix1 n)) 0) (Ideal.rsqrt (degree E (ix1 n))) 0 := by
  unfold dinv
  rw [select_apply, cmpf_apply, hostRsqrt_apply, id_eq, zeros_apply, Ideal.cmpf_def]

/-- Every node's factor is a non-negative number other than +inf: where the degree is positive it is the reciprocal
    square root of a positive extended real, and elsewhere it is zero. -/
theorem dinv_nonneg (E : IVec S2x800000 32) (n : Fin 50000) : 0 ≤ dinv E (ix1 n) ∧ dinv E (ix1 n) ≠ ⊤ := by
  rw [dinv_apply]
  unfold Scalar.select
  split
  · next h => exact LibFactorSum.rsqrt_nonneg_ne_top _ (lt_of_cmp_ogt h)
  · exact ⟨le_refl 0, EReal.zero_ne_top⟩

/-- An edge whose target word reads, signed, as node n has n as its target node: the word is not negative, so it is
    kept, and n is inside the node range, so the clamp keeps it. -/
theorem target_node (E : IVec S2x800000 32) (e : Fin 850000) (n : Fin 50000) :
    (col (dstWords E) (ix2 e (0 : Fin 1))).toInt = (n.val : ℤ) → Gcn.nd (col (wrapIdx (dstWords E)) (ix2 e (0 : Fin 1))) = n := by
  rw [col_apply, col_apply]
  intro h
  rw [wrapIdx_apply_of_nonneg _ e (by rw [h]; exact Int.natCast_nonneg _)]
  refine Fin.ext ?_
  show min (dstWords E (ix1 e)).toInt.toNat (50000 - 1) = n.val
  rw [h]
  have := n.isLt
  omega

end Cert.ReferenceIdeal.RefValue
end
-- ==== Proof.Bridge.lean ====
/-
  The two programs' results are one function of the arguments.

  The idealized kernel ends with its result array at the specification's kernel function of the launch contents, the
  reference with its result at the specification's reference function. Both are built over the same index words and
  the same factor of every node — the host operations that compute them are the same in the two programs —, the
  factor is a non-negative number other than +inf, and an edge that lands at a node names that node when its target
  word is read back; so the law of the specification applies.
-/
import proofs.«117656_j60876866453592_2_alg».proof.Proof.KernelRun
import proofs.«117656_j60876866453592_2_alg».proof.Proof.KernelEntry
import proofs.«117656_j60876866453592_2_alg».proof.Proof.RefValue
import proofs.«117656_j60876866453592_2_alg».proof.Proof.LibKeepdims
import Idealize.ShloMosaic.Lib.ValueLayout

set_option maxRecDepth 16384

noncomputable section

namespace Cert.Proof.Bridge

open Idealize.ShloMosaic Idealize.ShloMosaic.TcCoe Idealize.SL.Sem Idealize.ShloMosaic.ValueIdx

/-! ## The index words and the factor are the same terms in the two programs -/

theorem src_eq (E : IVec Cert.KernelIdeal.S2x800000 32) :
    Cert.KernelIdeal.HostAgg.col (Cert.KernelIdeal.HostAgg.wrap (Cert.KernelIdeal.Entry.srcWords E))
      = Cert.ReferenceIdeal.RefValue.col (Cert.ReferenceIdeal.RefValue.wrapIdx (Cert.ReferenceIdeal.RefValue.srcWords E)) := rfl

theorem dst_eq (E : IVec Cert.KernelIdeal.S2x800000 32) :
    Cert.KernelIdeal.HostAgg.col (Cert.KernelIdeal.Entry.dstWords E)
      = Cert.ReferenceIdeal.RefValue.col (Cert.ReferenceIdeal.RefValue.dstWords E) := rfl

theorem dinv_eq (E : IVec Cert.KernelIdeal.S2x800000 32) :
    Cert.KernelIdeal.Entry.dinv E = Cert.ReferenceIdeal.RefValue.dinv E := rfl

/-! ## The kernel's result is the reference's function -/

open Cert.ReferenceIdeal.RefValue in
theorem kernel_is_ref (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W8 m ρ c (Proc.devRef .tc Cert.KernelIdeal.main_v42)
      = Gcn.refOut 0 (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (fun q => m ((c.tc : Thread Cert.KernelIdeal.nD Cert.KernelIdeal.τ).loc Cert.KernelIdeal.main_arg3) (ix1 q))
          (m ((c.tc : Thread Cert.KernelIdeal.nD Cert.KernelIdeal.τ).loc Cert.KernelIdeal.main_arg4))
          (fun q => m ((c.tc : Thread Cert.KernelIdeal.nD Cert.KernelIdeal.τ).loc Cert.KernelIdeal.main_arg5) (ix1 q))
          (nrm (m ((c.tc : Thread Cert.KernelIdeal.nD Cert.KernelIdeal.τ).loc Cert.KernelIdeal.main_arg1)))
          (col (wrapIdx (srcWords (m ((c.tc : Thread Cert.KernelIdeal.nD Cert.KernelIdeal.τ).loc Cert.KernelIdeal.main_arg1)))))
          (col (dstWords (m ((c.tc : Thread Cert.KernelIdeal.nD Cert.KernelIdeal.τ).loc Cert.KernelIdeal.main_arg1)))) := by
  rw [Cert.KernelIdeal.Entry.result_eq, src_eq, dst_eq, dinv_eq]
  generalize m ((c.tc : Thread Cert.KernelIdeal.nD Cert.KernelIdeal.τ).loc Cert.KernelIdeal.main_arg1) = E
  exact Gcn.kernelOut_eq_refOut (fun n => dinv E (ix1 n)) (dinv_nonneg E) _
    (fun n => LibKeepdims.shapeCast_a_a1_apply _ _ n 0) _ _
    (fun e => Gcn.nd (col (wrapIdx (dstWords E)) (ix2 e (0 : Fin 1)))) (target_node E) (nrm E) (fun e => rfl)
    _ _ _ _ _ _ _ (fun q => shapeCast_a_1a_apply _ _ 0 q) (fun q => shapeCast_a_1a_apply _ _ 0 q)

end Cert.Proof.Bridge

end
-- ==== Proof.lean ====
/-
  A two-layer graph convolution with symmetric degree normalisation: three kernel regions among host gathers and
  accumulating scatters, against a plain reference.

  Both programs compute, from the edge array, each edge's source and target words and every node's factor d (the
  reciprocal square root of its degree, or zero). The reference weights the message of edge e by d(source) · d(target)
  and sums at the target; the kernel scales the rows by d before they are sent and scales the sum by d once after it
  has arrived, its three regions doing the dense work (features times weights scaled by d; the rectified, scaled and
  biased sums times the second weights scaled by d; the last scaling and bias) and the host the sending in between.
  On the extended reals the two agree because d is a non-negative number other than +inf, so it may be taken out of
  the sum over the edges that land at a node, and an edge that lands at a node names that node when its target word
  is read back as an index; a change of float format is the identity and a matrix product is the plain sum. No entry
  needs to be finite for this, so the precondition is not opened.

  The frames of the two kernel programs are the generated ones; the reference's frame is its run with the result
  dropped. The idealization rewrote no operation, so `preserves` is trivial.
-/
import proofs.«117656_j60876866453592_2_alg».proof.Defs
import proofs.«117656_j60876866453592_2_alg».proof.Proof.Gen.Kernel
import proofs.«117656_j60876866453592_2_alg».proof.Proof.Gen.Kernel.Skeleton
import proofs.«117656_j60876866453592_2_alg».proof.Proof.Gen.Kernel.Launch
import proofs.«117656_j60876866453592_2_alg».proof.Proof.Gen.Kernel.Points
import proofs.«117656_j60876866453592_2_alg».proof.Proof.Gen.Kernel.Frame
import proofs.«117656_j60876866453592_2_alg».proof.Proof.Gen.KernelIdeal
import proofs.«117656_j60876866453592_2_alg».proof.Proof.Gen.KernelIdeal.Skeleton
import proofs.«117656_j60876866453592_2_alg».proof.Proof.Gen.KernelIdeal.Launch
import proofs.«117656_j60876866453592_2_alg».proof.Proof.Gen.KernelIdeal.Points
import proofs.«117656_j60876866453592_2_alg».proof.Proof.Gen.KernelIdeal.Frame
import proofs.«117656_j60876866453592_2_alg».proof.Proof.Gen.ReferenceIdeal
import proofs.«117656_j60876866453592_2_alg».proof.Proof.Gen.Pre_finite_inputs
import proofs.«117656_j60876866453592_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the kernel's result array: the kernel by its
    run, the reference because its result is the same function of the arguments. -/
theorem algebraic : Cert.algebraic_KernelIdeal_ReferenceIdeal := by
  intro m ρ m' ρ' _ hagree
  refine ⟨fun c => Cert.KernelIdeal.Gen.W8 m ρ c (Proc.devRef .tc Cert.KernelIdeal.main_v42),
    Cert.KernelIdeal.RunValue.run_value m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  rw [Cert.ReferenceIdeal.RefValue.ref_value m' c, h0, h1, h2, h3, h4, h5]
  exact (Bridge.kernel_is_ref m ρ c).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, trivial, algebraic⟩

end Cert.Proof

end
